-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x100000 : Shape := ⟨2, ![2048, 100000]⟩
abbrev S2048x20 : Shape := ⟨2, ![2048, 20]⟩
abbrev S2048x200 : Shape := ⟨2, ![2048, 200]⟩
abbrev S_ : Shape := ⟨0, ![]⟩
abbrev S2048 : Shape := ⟨1, ![2048]⟩

class Facts : Prop where
  bcast_S_S2048x100000 : S_.BroadcastsInDim S2048x100000 (![] : Fin 0 → Fin S2048x100000.rank)
  reducesTo_S2048x100000_S_d0_1 : S2048x100000.ReducesTo [0, 1] S_
  h_S_ : 0 < S_.numel
  bcast_S_S2048x20 : S_.BroadcastsInDim S2048x20 (![] : Fin 0 → Fin S2048x20.rank)
  reducesTo_S2048x20_S_d0_1 : S2048x20.ReducesTo [0, 1] S_
  reducesTo_S2048x20_S2048_d1 : S2048x20.ReducesTo [1] S2048
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S2048x100000 .f32) (main_arg1 : IVec S2048x20 32) (main_arg2 : FVec F S2048x20 .f32) (main_arg3 : IVec S2048x200 32) : IVec S_ 1 :=
  let main_v0 : FVec F S2048x100000 .f32 := Host.absf main_arg0
  let main_cst : FVec F S_ .f32 := constant S_ .f32 0x7F800000#32
  let main_v1 : FVec F S2048x100000 .f32 := broadcastInDim S2048x100000 ![] bcast_S_S2048x100000 main_cst
  let main_v2 : IVec S2048x100000 1 := cmpf .olt main_v0 main_v1
  let main_c : IVec S_ 1 := constantI S_ 1 1#1
  let main_v3 : IVec S_ 1 := (fun x v => Host.reduce IntOp.andi x v reducesTo_S2048x100000_S_d0_1 h_S_) main_v2 main_c
  let main_v4 : FVec F S2048x20 .f32 := Host.absf main_arg2
  let main_cst_0 : FVec F S_ .f32 := constant S_ .f32 0x7F800000#32
  let main_v5 : FVec F S2048x20 .f32 := broadcastInDim S2048x20 ![] bcast_S_S2048x20 main_cst_0
  let main_v6 : IVec S2048x20 1 := cmpf .olt main_v4 main_v5
  let main_c_1 : IVec S_ 1 := constantI S_ 1 1#1
  let main_v7 : IVec S_ 1 := (fun x v => Host.reduce IntOp.andi x v reducesTo_S2048x20_S_d0_1 h_S_) main_v6 main_c_1
  let main_v8 : IVec S_ 1 := andi main_v3 main_v7
  let main_cst_2 : FVec F S_ .f32 := constant S_ .f32 0x00000000#32
  let main_v9 : FVec F S2048 .f32 := (fun x v => Host.reduceAdd x v reducesTo_S2048x20_S2048_d1 h_S_) main_arg2 main_cst_2
  let main_cst_3 : FVec F S_ .f32 := constant S_ .f32 0x00000000#32
  let main_v10 : FVec F S2048 .f32 := broadcastInDim S2048 ![] bcast_S_S2048 main_cst_3
  let main_v11 : IVec S2048 1 := cmpf .une main_v9 main_v10
  let main_c_4 : IVec S_ 1 := constantI S_ 1 1#1
  let main_v12 : IVec S_ 1 := (fun x v => Host.reduce IntOp.andi x v reducesTo_S2048_S_d0 h_S_) main_v11 main_c_4
  let main_v13 : IVec S_ 1 := andi main_v8 main_v12
  main_v13
-- ==== Kernel.lean ====
abbrev S2048x100000 : Shape := ⟨2, ![2048, 100000]⟩
abbrev S2048x20 : Shape := ⟨2, ![2048, 20]⟩
abbrev S2048x200 : Shape := ⟨2, ![2048, 200]⟩
abbrev S_ : Shape := ⟨0, ![]⟩
abbrev S2048x20x1 : Shape := ⟨3, ![2048, 20, 1]⟩
abbrev S1 : Shape := ⟨1, ![1]⟩
abbrev S1x1x1 : Shape := ⟨3, ![1, 1, 1]⟩
abbrev S2048x200x1 : Shape := ⟨3, ![2048, 200, 1]⟩
abbrev S2048x1 : Shape := ⟨2, ![2048, 1]⟩
abbrev S16x20 : Shape := ⟨2, ![16, 20]⟩
abbrev S16x200 : Shape := ⟨2, ![16, 200]⟩
abbrev S16x1 : Shape := ⟨2, ![16, 1]⟩
abbrev S16 : Shape := ⟨1, ![16]⟩

abbrev nBuf : Space → Nat
  | .hbm => 53
  | .vmem => 8
  | .smem => 0
  | _ => 0

abbrev bufTy : (tb : Table) → Fin (tcTables nBuf tb) → BufTy
  | .hbm, ⟨0, _⟩ => ⟨S2048x100000, .f32⟩
  | .hbm, ⟨1, _⟩ => ⟨S2048x20, .i32⟩
  | .hbm, ⟨2, _⟩ => ⟨S2048x20, .f32⟩
  | .hbm, ⟨3, _⟩ => ⟨S2048x200, .i32⟩
  | .hbm, ⟨4, _⟩ => ⟨S_, .i32⟩
  | .hbm, ⟨5, _⟩ => ⟨S2048x20, .i32⟩
  | .hbm, ⟨6, _⟩ => ⟨S2048x20, .i1⟩
  | .hbm, ⟨7, _⟩ => ⟨S_, .i32⟩
  | .hbm, ⟨8, _⟩ => ⟨S2048x20, .i32⟩
  | .hbm, ⟨9, _⟩ => ⟨S2048x20, .i32⟩
  | .hbm, ⟨10, _⟩ => ⟨S2048x20, .i32⟩
  | .hbm, ⟨11, _⟩ => ⟨S2048x20x1, .i32⟩
  | .hbm, ⟨12, _⟩ => ⟨S1, .i32⟩
  | .hbm, ⟨13, _⟩ => ⟨S_, .i32⟩
  | .hbm, ⟨14, _⟩ => ⟨S2048x20x1, .i32⟩
  | .hbm, ⟨15, _⟩ => ⟨S2048x20x1, .i1⟩
  | .hbm, ⟨16, _⟩ => ⟨S1x1x1, .i32⟩
  | .hbm, ⟨17, _⟩ => ⟨S2048x20x1, .i32⟩
  | .hbm, ⟨18, _⟩ => ⟨S2048x20x1, .i1⟩
  | .hbm, ⟨19, _⟩ => ⟨S2048x20x1, .i1⟩
  | .hbm, ⟨20, _⟩ => ⟨S_, .i1⟩
  | .hbm, ⟨21, _⟩ => ⟨S2048x20, .i1⟩
  | .hbm, ⟨22, _⟩ => ⟨S2048x20, .f32⟩
  | .hbm, ⟨23, _⟩ => ⟨S_, .f32⟩
  | .hbm, ⟨24, _⟩ => ⟨S2048x20, .f32⟩
  | .hbm, ⟨25, _⟩ => ⟨S2048x20, .f32⟩
  | .hbm, ⟨26, _⟩ => ⟨S_, .i32⟩
  | .hbm, ⟨27, _⟩ => ⟨S2048x200, .i32⟩
  | .hbm, ⟨28, _⟩ => ⟨S2048x200, .i1⟩
  | .hbm, ⟨29, _⟩ => ⟨S_, .i32⟩
  | .hbm, ⟨30, _⟩ => ⟨S2048x200, .i32⟩
  | .hbm, ⟨31, _⟩ => ⟨S2048x200, .i32⟩
  | .hbm, ⟨32, _⟩ => ⟨S2048x200, .i32⟩
  | .hbm, ⟨33, _⟩ => ⟨S2048x200x1, .i32⟩
  | .hbm, ⟨34, _⟩ => ⟨S1, .i32⟩
  | .hbm, ⟨35, _⟩ => ⟨S_, .i32⟩
  | .hbm, ⟨36, _⟩ => ⟨S2048x200x1, .i32⟩
  | .hbm, ⟨37, _⟩ => ⟨S2048x200x1, .i1⟩
  | .hbm, ⟨38, _⟩ => ⟨S1x1x1, .i32⟩
  | .hbm, ⟨39, _⟩ => ⟨S2048x200x1, .i32⟩
  | .hbm, ⟨40, _⟩ => ⟨S2048x200x1, .i1⟩
  | .hbm, ⟨41, _⟩ => ⟨S2048x200x1, .i1⟩
  | .hbm, ⟨42, _⟩ => ⟨S_, .i1⟩
  | .hbm, ⟨43, _⟩ => ⟨S2048x200, .i1⟩
  | .hbm, ⟨44, _⟩ => ⟨S2048x200, .f32⟩
  | .hbm, ⟨45, _⟩ => ⟨S_, .f32⟩
  | .hbm, ⟨46, _⟩ => ⟨S2048x200, .f32⟩
  | .hbm, ⟨47, _⟩ => ⟨S2048x200, .f32⟩
  | .hbm, ⟨48, _⟩ => ⟨S2048x1, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .local _ .vmem, ⟨0, _⟩ => ⟨S16x20, .f32⟩
  | .local _ .vmem, ⟨1, _⟩ => ⟨S16x20, .f32⟩
  | .local _ .vmem, ⟨2, _⟩ => ⟨S16x20, .f32⟩
  | .local _ .vmem, ⟨3, _⟩ => ⟨S16x20, .f32⟩
  | .local _ .vmem, ⟨4, _⟩ => ⟨S16x200, .f32⟩
  | .local _ .vmem, ⟨5, _⟩ => ⟨S16x200, .f32⟩
  | .local _ .vmem, ⟨6, _⟩ => ⟨S16x1, .f32⟩
  | .local _ .vmem, ⟨7, _⟩ => ⟨S16x1, .f32⟩
  | _, _ => ⟨S2048x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_cst : Ref sig .tc := ⟨.hbm, 23, rfl⟩
abbrev main_call0_v14 : Ref sig .tc := ⟨.hbm, 24, rfl⟩
abbrev main_v0 : Ref sig .tc := ⟨.hbm, 25, rfl⟩
abbrev main_call1_c : Ref sig .tc := ⟨.hbm, 26, rfl⟩
abbrev main_call1_v0 : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_c_1 : Ref sig .tc := ⟨.hbm, 34, rfl⟩
abbrev main_call1_c_2 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_3 : Ref sig .tc := ⟨.hbm, 42, rfl⟩
abbrev main_call1_v12 : Ref sig .tc := ⟨.hbm, 43, rfl⟩
abbrev main_call1_v13 : Ref sig .tc := ⟨.hbm, 44, rfl⟩
abbrev main_call1_cst : Ref sig .tc := ⟨.hbm, 45, rfl⟩
abbrev main_call1_v14 : Ref sig .tc := ⟨.hbm, 46, rfl⟩
abbrev main_v1 : Ref sig .tc := ⟨.hbm, 47, rfl⟩
abbrev main_v2 : Ref sig .tc := ⟨.hbm, 48, rfl⟩
abbrev main_cst : Ref sig .tc := ⟨.hbm, 49, rfl⟩
abbrev main_v3 : Ref sig .tc := ⟨.hbm, 50, rfl⟩
abbrev main_cst_0 : Ref sig .tc := ⟨.hbm, 51, rfl⟩
abbrev main_v4 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x20 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x20 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x200 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S2048x20 : S_.BroadcastsInDim S2048x20 (![] : Fin 0 → Fin S2048x20.rank)
  shapeCasts_S2048x20_S2048x20x1 : S2048x20.ShapeCasts S2048x20x1
  bcast_S_S2048x20x1 : S_.BroadcastsInDim S2048x20x1 (![] : Fin 0 → Fin S2048x20x1.rank)
  bcast_S1_S1x1x1_2 : S1.BroadcastsInDim S1x1x1 (![2] : Fin 1 → Fin S1x1x1.rank)
  bcast_S1x1x1_S2048x20x1_0_1_2 : S1x1x1.BroadcastsInDim S2048x20x1 (![0, 1, 2] : Fin 3 → Fin S2048x20x1.rank)
  reducesTo_S2048x20x1_S2048x20_d2 : S2048x20x1.ReducesTo [2] S2048x20
  h_S_ : 0 < S_.numel
  bcast_S_S2048x200 : S_.BroadcastsInDim S2048x200 (![] : Fin 0 → Fin S2048x200.rank)
  shapeCasts_S2048x200_S2048x200x1 : S2048x200.ShapeCasts S2048x200x1
  bcast_S_S2048x200x1 : S_.BroadcastsInDim S2048x200x1 (![] : Fin 0 → Fin S2048x200x1.rank)
  bcast_S1x1x1_S2048x200x1_0_1_2 : S1x1x1.BroadcastsInDim S2048x200x1 (![0, 1, 2] : Fin 3 → Fin S2048x200x1.rank)
  reducesTo_S2048x200x1_S2048x200_d2 : S2048x200x1.ReducesTo [2] S2048x200
  inb_S16x20_S16x20_0_0 : ∀ a, (![0, 0] : Fin 2 → Nat) a + S16x20.size a ≤ S16x20.size a
  h_S16x20 : 0 < S16x20.numel
  shapeCasts_S16x20_S16x20 : S16x20.ShapeCasts S16x20
  inb_S16x200_S16x200_0_0 : ∀ a, (![0, 0] : Fin 2 → Nat) a + S16x200.size a ≤ S16x200.size a
  h_S16x200 : 0 < S16x200.numel
  shapeCasts_S16x200_S16x200 : S16x200.ShapeCasts S16x200
  reduces_S16x20_S16 : S16x20.Reduces [1] S16
  shapeCasts_S16_S16x1 : S16.ShapeCasts S16x1
  broadcasts_S16x1_S16x20 : S16x1.Broadcasts S16x20
  reduces_S16x200_S16 : S16x200.Reduces [1] S16
  inb_S16x1_S16x1_0_0 : ∀ a, (![0, 0] : Fin 2 → Nat) a + S16x1.size a ≤ S16x1.size a
  h_S16x1 : 0 < S16x1.numel
  reducesTo_S2048x1_S_d0_1 : S2048x1.ReducesTo [0, 1] S_
  gather_S2048x100000_S2048x20x1_S2048x20_n_1_0_0_1_2_11_wf : GatherDims.WF S2048x100000 S2048x20x1 S2048x20 [] [1] [0] [1] [0] 2 ![1, 1]
  gather_S2048x100000_S2048x200x1_S2048x200_n_1_0_0_1_2_11_wf : GatherDims.WF S2048x100000 S2048x200x1 S2048x200 [] [1] [0] [1] [0] 2 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x20.size a ≤ S2048x20.size a
  hwx0_0 : ∀ i : grid0.Coords, EltTy.bits .f32 = 32 ∨ (Rect.block (s := S2048x20) S16x20.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x20.size a ≤ S2048x20.size a
  hwx0_1 : ∀ i : grid0.Coords, EltTy.bits .f32 = 32 ∨ (Rect.block (s := S2048x20) S16x20.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x200.size a ≤ S2048x200.size a
  hwx0_2 : ∀ i : grid0.Coords, EltTy.bits .f32 = 32 ∨ (Rect.block (s := S2048x200) S16x200.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x1.size a ≤ S2048x1.size a
  hwx0_3 : ∀ i : grid0.Coords, EltTy.bits .f32 = 32 ∨ (Rect.block (s := S2048x1) S16x1.size (cc0_transform_3 i) (hinb0_3 i)).WholeWords (EltTy.packing .f32)

variable [Facts₀]

def gather_S2048x100000_S2048x20x1_S2048x20_n_1_0_0_1_2_11 : GatherDims S2048x100000 S2048x20x1 S2048x20 where
  offsetDims := []
  collapsedSliceDims := [1]
  operandBatchingDims := [0]
  startIndicesBatchingDims := [0]
  startIndexMap := [1]
  indexVectorDim := 2
  sliceSizes := ![1, 1]
  wf := gather_S2048x100000_S2048x20x1_S2048x20_n_1_0_0_1_2_11_wf
def gather_S2048x100000_S2048x200x1_S2048x200_n_1_0_0_1_2_11 : GatherDims S2048x100000 S2048x200x1 S2048x200 where
  offsetDims := []
  collapsedSliceDims := [1]
  operandBatchingDims := [0]
  startIndicesBatchingDims := [0]
  startIndexMap := [1]
  indexVectorDim := 2
  sliceSizes := ![1, 1]
  wf := gather_S2048x100000_S2048x200x1_S2048x200_n_1_0_0_1_2_11_wf

abbrev win0_0 : Pipeline.Window sig grid0 :=
  Pipeline.Window.ofSpec (Memref.whole main_v0) S16x20.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S16x20.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S16x200.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S16x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2048x100000 : Shape := ⟨2, ![2048, 100000]⟩
abbrev S2048x20 : Shape := ⟨2, ![2048, 20]⟩
abbrev S2048x200 : Shape := ⟨2, ![2048, 200]⟩
abbrev S_ : Shape := ⟨0, ![]⟩
abbrev S2048x20x1 : Shape := ⟨3, ![2048, 20, 1]⟩
abbrev S1 : Shape := ⟨1, ![1]⟩
abbrev S1x1x1 : Shape := ⟨3, ![1, 1, 1]⟩
abbrev S2048 : Shape := ⟨1, ![2048]⟩
abbrev S2048x1 : Shape := ⟨2, ![2048, 1]⟩
abbrev S2048x200x1 : Shape := ⟨3, ![2048, 200, 1]⟩

abbrev nBuf : Space → Nat
  | .hbm => 96
  | .vmem => 0
  | .smem => 0
  | _ => 0

abbrev bufTy : (tb : Table) → Fin (tcTables nBuf tb) → BufTy
  | .hbm, ⟨0, _⟩ => ⟨S2048x100000, .f32⟩
  | .hbm, ⟨1, _⟩ => ⟨S2048x20, .i32⟩
  | .hbm, ⟨2, _⟩ => ⟨S2048x20, .f32⟩
  | .hbm, ⟨3, _⟩ => ⟨S2048x200, .i32⟩
  | .hbm, ⟨4, _⟩ => ⟨S_, .i32⟩
  | .hbm, ⟨5, _⟩ => ⟨S2048x20, .i32⟩
  | .hbm, ⟨6, _⟩ => ⟨S2048x20, .i1⟩
  | .hbm, ⟨7, _⟩ => ⟨S_, .i32⟩
  | .hbm, ⟨8, _⟩ => ⟨S2048x20, .i32⟩
  | .hbm, ⟨9, _⟩ => ⟨S2048x20, .i32⟩
  | .hbm, ⟨10, _⟩ => ⟨S2048x20, .i32⟩
  | .hbm, ⟨11, _⟩ => ⟨S2048x20x1, .i32⟩
  | .hbm, ⟨12, _⟩ => ⟨S1, .i32⟩
  | .hbm, ⟨13, _⟩ => ⟨S_, .i32⟩
  | .hbm, ⟨14, _⟩ => ⟨S2048x20x1, .i32⟩
  | .hbm, ⟨15, _⟩ => ⟨S2048x20x1, .i1⟩
  | .hbm, ⟨16, _⟩ => ⟨S1x1x1, .i32⟩
  | .hbm, ⟨17, _⟩ => ⟨S2048x20x1, .i32⟩
  | .hbm, ⟨18, _⟩ => ⟨S2048x20x1, .i1⟩
  | .hbm, ⟨19, _⟩ => ⟨S2048x20x1, .i1⟩
  | .hbm, ⟨20, _⟩ => ⟨S_, .i1⟩
  | .hbm, ⟨21, _⟩ => ⟨S2048x20, .i1⟩
  | .hbm, ⟨22, _⟩ => ⟨S2048x20, .f32⟩
  | .hbm, ⟨23, _⟩ => ⟨S_, .f32⟩
  | .hbm, ⟨24, _⟩ => ⟨S2048x20, .f32⟩
  | .hbm, ⟨25, _⟩ => ⟨S2048x20, .f32⟩
  | .hbm, ⟨26, _⟩ => ⟨S_, .f32⟩
  | .hbm, ⟨27, _⟩ => ⟨S2048, .f32⟩
  | .hbm, ⟨28, _⟩ => ⟨S2048x1, .f32⟩
  | .hbm, ⟨29, _⟩ => ⟨S2048x20, .f32⟩
  | .hbm, ⟨30, _⟩ => ⟨S2048x20, .f32⟩
  | .hbm, ⟨31, _⟩ => ⟨S2048x20, .f32⟩
  | .hbm, ⟨32, _⟩ => ⟨S_, .f32⟩
  | .hbm, ⟨33, _⟩ => ⟨S2048x20, .f32⟩
  | .hbm, ⟨34, _⟩ => ⟨S2048x20, .f32⟩
  | .hbm, ⟨35, _⟩ => ⟨S2048x20, .f32⟩
  | .hbm, ⟨36, _⟩ => ⟨S2048x20, .f32⟩
  | .hbm, ⟨37, _⟩ => ⟨S2048x20, .i1⟩
  | .hbm, ⟨38, _⟩ => ⟨S2048x20, .f32⟩
  | .hbm, ⟨39, _⟩ => ⟨S2048x20, .f32⟩
  | .hbm, ⟨40, _⟩ => ⟨S2048x20, .f32⟩
  | .hbm, ⟨41, _⟩ => ⟨S2048x20, .f32⟩
  | .hbm, ⟨42, _⟩ => ⟨S2048x20, .f32⟩
  | .hbm, ⟨43, _⟩ => ⟨S2048x20, .f32⟩
  | .hbm, ⟨44, _⟩ => ⟨S2048x20, .f32⟩
  | .hbm, ⟨45, _⟩ => ⟨S2048x20, .f32⟩
  | .hbm, ⟨46, _⟩ => ⟨S2048x20, .f32⟩
  | .hbm, ⟨47, _⟩ => ⟨S2048x20, .f32⟩
  | .hbm, ⟨48, _⟩ => ⟨S_, .f32⟩
  | .hbm, ⟨49, _⟩ => ⟨S2048, .f32⟩
  | .hbm, ⟨50, _⟩ => ⟨S_, .i32⟩
  | .hbm, ⟨51, _⟩ => ⟨S2048x200, .i32⟩
  | .hbm, ⟨52, _⟩ => ⟨S2048x200, .i1⟩
  | .hbm, ⟨53, _⟩ => ⟨S_, .i32⟩
  | .hbm, ⟨54, _⟩ => ⟨S2048x200, .i32⟩
  | .hbm, ⟨55, _⟩ => ⟨S2048x200, .i32⟩
  | .hbm, ⟨56, _⟩ => ⟨S2048x200, .i32⟩
  | .hbm, ⟨57, _⟩ => ⟨S2048x200x1, .i32⟩
  | .hbm, ⟨58, _⟩ => ⟨S1, .i32⟩
  | .hbm, ⟨59, _⟩ => ⟨S_, .i32⟩
  | .hbm, ⟨60, _⟩ => ⟨S2048x200x1, .i32⟩
  | .hbm, ⟨61, _⟩ => ⟨S2048x200x1, .i1⟩
  | .hbm, ⟨62, _⟩ => ⟨S1x1x1, .i32⟩
  | .hbm, ⟨63, _⟩ => ⟨S2048x200x1, .i32⟩
  | .hbm, ⟨64, _⟩ => ⟨S2048x200x1, .i1⟩
  | .hbm, ⟨65, _⟩ => ⟨S2048x200x1, .i1⟩
  | .hbm, ⟨66, _⟩ => ⟨S_, .i1⟩
  | .hbm, ⟨67, _⟩ => ⟨S2048x200, .i1⟩
  | .hbm, ⟨68, _⟩ => ⟨S2048x200, .f32⟩
  | .hbm, ⟨69, _⟩ => ⟨S_, .f32⟩
  | .hbm, ⟨70, _⟩ => ⟨S2048x200, .f32⟩
  | .hbm, ⟨71, _⟩ => ⟨S2048x200, .f32⟩
  | .hbm, ⟨72, _⟩ => ⟨S2048x200, .f32⟩
  | .hbm, ⟨73, _⟩ => ⟨S2048x200, .f32⟩
  | .hbm, ⟨74, _⟩ => ⟨S_, .f32⟩
  | .hbm, ⟨75, _⟩ => ⟨S2048x200, .f32⟩
  | .hbm, ⟨76, _⟩ => ⟨S2048x200, .f32⟩
  | .hbm, ⟨77, _⟩ => ⟨S2048x200, .f32⟩
  | .hbm, ⟨78, _⟩ => ⟨S2048x200, .f32⟩
  | .hbm, ⟨79, _⟩ => ⟨S2048x200, .i1⟩
  | .hbm, ⟨80, _⟩ => ⟨S2048x200, .f32⟩
  | .hbm, ⟨81, _⟩ => ⟨S2048x200, .f32⟩
  | .hbm, ⟨82, _⟩ => ⟨S2048x200, .f32⟩
  | .hbm, ⟨83, _⟩ => ⟨S2048x200, .f32⟩
  | .hbm, ⟨84, _⟩ => ⟨S2048x200, .f32⟩
  | .hbm, ⟨85, _⟩ => ⟨S2048x200, .f32⟩
  | .hbm, ⟨86, _⟩ => ⟨S2048x200, .f32⟩
  | .hbm, ⟨87, _⟩ => ⟨S2048x200, .f32⟩
  | .hbm, ⟨88, _⟩ => ⟨S2048x200, .f32⟩
  | .hbm, ⟨89, _⟩ => ⟨S_, .f32⟩
  | .hbm, ⟨90, _⟩ => ⟨S2048, .f32⟩
  | .hbm, ⟨91, _⟩ => ⟨S2048, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | _, _ => ⟨S2048x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_cst : Ref sig .tc := ⟨.hbm, 23, rfl⟩
abbrev main_call0_v14 : Ref sig .tc := ⟨.hbm, 24, rfl⟩
abbrev main_v0 : Ref sig .tc := ⟨.hbm, 25, rfl⟩
abbrev main_cst : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_call1_v0 : Ref sig .tc := ⟨.hbm, 31, rfl⟩
abbrev main_call1_call0_cst : Ref sig .tc := ⟨.hbm, 32, rfl⟩
abbrev main_call1_call0_v0 : Ref sig .tc := ⟨.hbm, 33, rfl⟩
abbrev main_call1_call0_v1 : Ref sig .tc := ⟨.hbm, 34, rfl⟩
abbrev main_call1_call0_v2 : Ref sig .tc := ⟨.hbm, 35, rfl⟩
abbrev main_call1_call0_v3 : Ref sig .tc := ⟨.hbm, 36, rfl⟩
abbrev main_call1_call0_v4 : Ref sig .tc := ⟨.hbm, 37, rfl⟩
abbrev main_call1_call0_v5 : Ref sig .tc := ⟨.hbm, 38, rfl⟩
abbrev main_call1_call0_v6 : Ref sig .tc := ⟨.hbm, 39, rfl⟩
abbrev main_call1_call0_v7 : Ref sig .tc := ⟨.hbm, 40, rfl⟩
abbrev main_call1_call0_v8 : Ref sig .tc := ⟨.hbm, 41, rfl⟩
abbrev main_call1_call0_v9 : Ref sig .tc := ⟨.hbm, 42, rfl⟩
abbrev main_call1_call0_v10 : Ref sig .tc := ⟨.hbm, 43, rfl⟩
abbrev main_call1_call0_v11 : Ref sig .tc := ⟨.hbm, 44, rfl⟩
abbrev main_call1_v1 : Ref sig .tc := ⟨.hbm, 45, rfl⟩
abbrev main_v5 : Ref sig .tc := ⟨.hbm, 46, rfl⟩
abbrev main_v6 : Ref sig .tc := ⟨.hbm, 47, rfl⟩
abbrev main_cst_0 : Ref sig .tc := ⟨.hbm, 48, rfl⟩
abbrev main_v7 : Ref sig .tc := ⟨.hbm, 49, rfl⟩
abbrev main_call2_c : Ref sig .tc := ⟨.hbm, 50, rfl⟩
abbrev main_call2_v0 : Ref sig .tc := ⟨.hbm, 51, rfl⟩
abbrev main_call2_v1 : Ref sig .tc := ⟨.hbm, 52, rfl⟩
abbrev main_call2_c_0 : Ref sig .tc := ⟨.hbm, 53, rfl⟩
abbrev main_call2_v2 : Ref sig .tc := ⟨.hbm, 54, rfl⟩
abbrev main_call2_v3 : Ref sig .tc := ⟨.hbm, 55, rfl⟩
abbrev main_call2_v4 : Ref sig .tc := ⟨.hbm, 56, rfl⟩
abbrev main_call2_v5 : Ref sig .tc := ⟨.hbm, 57, rfl⟩
abbrev main_call2_c_1 : Ref sig .tc := ⟨.hbm, 58, rfl⟩
abbrev main_call2_c_2 : Ref sig .tc := ⟨.hbm, 59, rfl⟩
abbrev main_call2_v6 : Ref sig .tc := ⟨.hbm, 60, rfl⟩
abbrev main_call2_v7 : Ref sig .tc := ⟨.hbm, 61, rfl⟩
abbrev main_call2_v8 : Ref sig .tc := ⟨.hbm, 62, rfl⟩
abbrev main_call2_v9 : Ref sig .tc := ⟨.hbm, 63, rfl⟩
abbrev main_call2_v10 : Ref sig .tc := ⟨.hbm, 64, rfl⟩
abbrev main_call2_v11 : Ref sig .tc := ⟨.hbm, 65, rfl⟩
abbrev main_call2_c_3 : Ref sig .tc := ⟨.hbm, 66, rfl⟩
abbrev main_call2_v12 : Ref sig .tc := ⟨.hbm, 67, rfl⟩
abbrev main_call2_v13 : Ref sig .tc := ⟨.hbm, 68, rfl⟩
abbrev main_call2_cst : Ref sig .tc := ⟨.hbm, 69, rfl⟩
abbrev main_call2_v14 : Ref sig .tc := ⟨.hbm, 70, rfl⟩
abbrev main_v8 : Ref sig .tc := ⟨.hbm, 71, rfl⟩
abbrev main_v9 : Ref sig .tc := ⟨.hbm, 72, rfl⟩
abbrev main_call3_v0 : Ref sig .tc := ⟨.hbm, 73, rfl⟩
abbrev main_call3_call0_cst : Ref sig .tc := ⟨.hbm, 74, rfl⟩
abbrev main_call3_call0_v0 : Ref sig .tc := ⟨.hbm, 75, rfl⟩
abbrev main_call3_call0_v1 : Ref sig .tc := ⟨.hbm, 76, rfl⟩
abbrev main_call3_call0_v2 : Ref sig .tc := ⟨.hbm, 77, rfl⟩
abbrev main_call3_call0_v3 : Ref sig .tc := ⟨.hbm, 78, rfl⟩
abbrev main_call3_call0_v4 : Ref sig .tc := ⟨.hbm, 79, rfl⟩
abbrev main_call3_call0_v5 : Ref sig .tc := ⟨.hbm, 80, rfl⟩
abbrev main_call3_call0_v6 : Ref sig .tc := ⟨.hbm, 81, rfl⟩
abbrev main_call3_call0_v7 : Ref sig .tc := ⟨.hbm, 82, rfl⟩
abbrev main_call3_call0_v8 : Ref sig .tc := ⟨.hbm, 83, rfl⟩
abbrev main_call3_call0_v9 : Ref sig .tc := ⟨.hbm, 84, rfl⟩
abbrev main_call3_call0_v10 : Ref sig .tc := ⟨.hbm, 85, rfl⟩
abbrev main_call3_call0_v11 : Ref sig .tc := ⟨.hbm, 86, rfl⟩
abbrev main_call3_v1 : Ref sig .tc := ⟨.hbm, 87, rfl⟩
abbrev main_v10 : Ref sig .tc := ⟨.hbm, 88, rfl⟩
abbrev main_cst_1 : Ref sig .tc := ⟨.hbm, 89, rfl⟩
abbrev main_v11 : Ref sig .tc := ⟨.hbm, 90, rfl⟩
abbrev main_v12 : Ref sig .tc := ⟨.hbm, 91, rfl⟩
abbrev main_cst_2 : Ref sig .tc := ⟨.hbm, 92, rfl⟩
abbrev main_v13 : Ref sig .tc := ⟨.hbm, 93, rfl⟩
abbrev main_cst_3 : Ref sig .tc := ⟨.hbm, 94, rfl⟩
abbrev main_v14 : Ref sig .tc := ⟨.hbm, 95, rfl⟩

abbrev nD : Nat := 1
abbrev τ : Topo := Topo.v7x

variable {F : FTy → Type} [FloatOps F]

class Facts₀ : Prop where
  bcast_S_S2048x20 : S_.BroadcastsInDim S2048x20 (![] : Fin 0 → Fin S2048x20.rank)
  shapeCasts_S2048x20_S2048x20x1 : S2048x20.ShapeCasts S2048x20x1
  bcast_S_S2048x20x1 : S_.BroadcastsInDim S2048x20x1 (![] : Fin 0 → Fin S2048x20x1.rank)
  bcast_S1_S1x1x1_2 : S1.BroadcastsInDim S1x1x1 (![2] : Fin 1 → Fin S1x1x1.rank)
  bcast_S1x1x1_S2048x20x1_0_1_2 : S1x1x1.BroadcastsInDim S2048x20x1 (![0, 1, 2] : Fin 3 → Fin S2048x20x1.rank)
  reducesTo_S2048x20x1_S2048x20_d2 : S2048x20x1.ReducesTo [2] S2048x20
  h_S_ : 0 < S_.numel
  reducesTo_S2048x20_S2048_d1 : S2048x20.ReducesTo [1] S2048
  bcast_S2048_S2048x1_0 : S2048.BroadcastsInDim S2048x1 (![0] : Fin 1 → Fin S2048x1.rank)
  bcast_S2048x1_S2048x20_0_1 : S2048x1.BroadcastsInDim S2048x20 (![0, 1] : Fin 2 → Fin S2048x20.rank)
  bcast_S_S2048x200 : S_.BroadcastsInDim S2048x200 (![] : Fin 0 → Fin S2048x200.rank)
  shapeCasts_S2048x200_S2048x200x1 : S2048x200.ShapeCasts S2048x200x1
  bcast_S_S2048x200x1 : S_.BroadcastsInDim S2048x200x1 (![] : Fin 0 → Fin S2048x200x1.rank)
  bcast_S1x1x1_S2048x200x1_0_1_2 : S1x1x1.BroadcastsInDim S2048x200x1 (![0, 1, 2] : Fin 3 → Fin S2048x200x1.rank)
  reducesTo_S2048x200x1_S2048x200_d2 : S2048x200x1.ReducesTo [2] S2048x200
  reducesTo_S2048x200_S2048_d1 : S2048x200.ReducesTo [1] S2048
  reducesTo_S2048_S_d0 : S2048.ReducesTo [0] S_
  gather_S2048x100000_S2048x20x1_S2048x20_n_1_0_0_1_2_11_wf : GatherDims.WF S2048x100000 S2048x20x1 S2048x20 [] [1] [0] [1] [0] 2 ![1, 1]
  gather_S2048x100000_S2048x200x1_S2048x200_n_1_0_0_1_2_11_wf : GatherDims.WF S2048x100000 S2048x200x1 S2048x200 [] [1] [0] [1] [0] 2 ![1, 1]

variable [Facts₀]

def gather_S2048x100000_S2048x20x1_S2048x20_n_1_0_0_1_2_11 : GatherDims S2048x100000 S2048x20x1 S2048x20 where
  offsetDims := []
  collapsedSliceDims := [1]
  operandBatchingDims := [0]
  startIndicesBatchingDims := [0]
  startIndexMap := [1]
  indexVectorDim := 2
  sliceSizes := ![1, 1]
  wf := gather_S2048x100000_S2048x20x1_S2048x20_n_1_0_0_1_2_11_wf
def gather_S2048x100000_S2048x200x1_S2048x200_n_1_0_0_1_2_11 : GatherDims S2048x100000 S2048x200x1 S2048x200 where
  offsetDims := []
  collapsedSliceDims := [1]
  operandBatchingDims := [0]
  startIndicesBatchingDims := [0]
  startIndexMap := [1]
  indexVectorDim := 2
  sliceSizes := ![1, 1]
  wf := gather_S2048x100000_S2048x200x1_S2048x200_n_1_0_0_1_2_11_wf

class Facts : Prop extends Facts₀ where

variable [Facts]
-- ==== Proof.Spec.lean ====
/-
  The loss both programs compute, as mathematics on the extended reals.

  For a batch row r with positive logits P r j (j < 20), soft-label weights tv r j and negative logits Ng r k (k < 200):

      rowLoss r = ∑ⱼ (tv r j / ∑ⱼ' tv r j') · logσ (P r j)  +  ∑ₖ logσ (−Ng r k),       logσ x = −softplus (−x),
      softplus x = max x 0 + log (1 + exp (−|x|)),

  and the result is the mean over the 2048 rows, (0 + ∑ᵣ rowLoss r) / 2048. The positive and negative logits are entries of
  the logit matrix looked up at the key tables (`takeP`, `takeN`: the index wrapped when negative, the entry replaced by
  the not-a-number pattern when the index is out of range, exactly as both programs spell it).

  The kernel guards the weights' denominator (a zero row sum is replaced by one); where every row sum is nonzero the guardDen
  is the identity (`guardDen_of_ne`), which is where the added precondition is used.
-/
import Idealize.ShloMosaic.PureOps
import Idealize.ShloMosaic.PureOps.Ideal
import Idealize.ShloMosaic.PureOps.Ideal.Laws
import Idealize.ShloMosaic.Lib.ValueIdx

noncomputable section

open scoped BigOperators

namespace Cert.Loss

open Idealize.ShloMosaic Idealize.ShloMosaic.ValueIdx

/-! ## The shapes -/

abbrev SA : Shape := ⟨2, ![2048, 100000]⟩
abbrev SP : Shape := ⟨2, ![2048, 20]⟩
abbrev SP1 : Shape := ⟨3, ![2048, 20, 1]⟩
abbrev SN : Shape := ⟨2, ![2048, 200]⟩
abbrev SN1 : Shape := ⟨3, ![2048, 200, 1]⟩
abbrev SB : Shape := ⟨1, ![2048]⟩
abbrev SB1 : Shape := ⟨2, ![2048, 1]⟩
abbrev Ssc : Shape := ⟨0, ![]⟩
abbrev Sone : Shape := ⟨1, ![1]⟩
abbrev S111 : Shape := ⟨3, ![1, 1, 1]⟩

/-! ## The table look-ups, as both programs spell them -/

def gatherP : GatherDims SA SP1 SP where
  offsetDims := []
  collapsedSliceDims := [1]
  operandBatchingDims := [0]
  startIndicesBatchingDims := [0]
  startIndexMap := [1]
  indexVectorDim := 2
  sliceSizes := ![1, 1]

def gatherN : GatherDims SA SN1 SN where
  offsetDims := []
  collapsedSliceDims := [1]
  operandBatchingDims := [0]
  startIndicesBatchingDims := [0]
  startIndexMap := [1]
  indexVectorDim := 2
  sliceSizes := ![1, 1]

variable {F : FTy → Type} [FloatOps F]

/-- Row r, column j of the result is x (r, k r j), the key wrapped by 100000 when negative; not-a-number when the wrapped
    key is outside [0, 99999]. -/
def takeP (x : FVec F SA .f32) (k : IVec SP 32) : FVec F SP .f32 :=
  let k4 : IVec SP 32 := select (cmpi .slt k (broadcastInDim SP ![] (by decide) (constantI Ssc 32 0#32)))
    (addi k (broadcastInDim SP ![] (by decide) (constantI Ssc 32 100000#32))) k
  let k5 : IVec SP1 32 := shapeCast SP1 k4 (by decide)
  let ok : IVec SP1 1 := andi (cmpi .sge k5 (broadcastInDim SP1 ![] (by decide) (constantI Ssc 32 0#32)))
    (cmpi .sle k5 (broadcastInDim SP1 ![0, 1, 2] (by decide) (broadcastInDim S111 ![2] (by decide) (constantI Sone 32 99999#32))))
  select (Host.reduce IntOp.andi ok (constantI Ssc 1 1#1) (by decide : SP1.ReducesTo [2] SP) (by decide))
    (Host.gather gatherP x k5) (broadcastInDim SP ![] (by decide) (constant Ssc .f32 0x7FC00000#32))

/-- The same look-up for the 200 negative samples of each row. -/
def takeN (x : FVec F SA .f32) (k : IVec SN 32) : FVec F SN .f32 :=
  let k4 : IVec SN 32 := select (cmpi .slt k (broadcastInDim SN ![] (by decide) (constantI Ssc 32 0#32)))
    (addi k (broadcastInDim SN ![] (by decide) (constantI Ssc 32 100000#32))) k
  let k5 : IVec SN1 32 := shapeCast SN1 k4 (by decide)
  let ok : IVec SN1 1 := andi (cmpi .sge k5 (broadcastInDim SN1 ![] (by decide) (constantI Ssc 32 0#32)))
    (cmpi .sle k5 (broadcastInDim SN1 ![0, 1, 2] (by decide) (broadcastInDim S111 ![2] (by decide) (constantI Sone 32 99999#32))))
  select (Host.reduce IntOp.andi ok (constantI Ssc 1 1#1) (by decide : SN1.ReducesTo [2] SN) (by decide))
    (Host.gather gatherN x k5) (broadcastInDim SN ![] (by decide) (constant Ssc .f32 0x7FC00000#32))

/-! ## The scalar functions -/

/-- softplus x = max x 0 + log (1 + exp (−|x|)). -/
def sp (x : EReal) : EReal := max x 0 + Ideal.log1p (Ideal.exp (-(max x (-x))))

/-- logσ x = −softplus (−x). -/
def ls (x : EReal) : EReal := -(sp (-x))

/-- The kernel's guarded denominator: a zero row sum is replaced by the f32 word of one. -/
def guardDen (d : EReal) : EReal := if d = 0 then Ideal.ofBits .f32 0x3F800000#32 else d

theorem guardDen_of_ne {d : EReal} (h : d ≠ 0) : guardDen d = d := if_neg h

/-- One row's loss. -/
def rowLoss {R : Type} (P : R → Fin 20 → EReal) (tv : R → Fin 20 → EReal) (Ng : R → Fin 200 → EReal) (r : R) : EReal :=
  (∑ j : Fin 20, Ideal.div (tv r j) (∑ j' : Fin 20, tv r j') * ls (P r j)) + ∑ k : Fin 200, ls (-(Ng r k))

/-- One row's loss with the kernel's guarded denominator. -/
def rowLossG {R : Type} (P : R → Fin 20 → EReal) (tv : R → Fin 20 → EReal) (Ng : R → Fin 200 → EReal) (r : R) : EReal :=
  (∑ j : Fin 20, Ideal.div (tv r j) (guardDen (∑ j' : Fin 20, tv r j')) * ls (P r j)) + ∑ k : Fin 200, ls (-(Ng r k))

theorem rowLossG_eq {R : Type} (P tv : R → Fin 20 → EReal) (Ng : R → Fin 200 → EReal) (r : R) (h : (∑ j' : Fin 20, tv r j') ≠ 0) :
    rowLossG P tv Ng r = rowLoss P tv Ng r := by
  unfold rowLossG rowLoss; rw [guardDen_of_ne h]

/-- The mean over the batch. -/
def meanLoss (row : Fin 2048 → EReal) : EReal := Ideal.div (0 + ∑ r : Fin 2048, row r) (Ideal.ofBits .f32 0x45000000#32)

/-! ## The two spellings of softplus and of logσ at one entry

  Both programs spell softplus x as select (d ≠ d) (x + 0) (max x 0 + log1p (exp (−|d|))) with d = x − 0: the first branch is
  the source's not-a-number case, which the extended reals do not have. -/

theorem cmp_ne_self (p : CmpFPredicate) (hp : p = .une ∨ p = .one) (d : EReal) : Ideal.cmp p d d = 0#1 := by
  rcases hp with rfl | rfl <;> simp [Ideal.cmp]

/-- The printed softplus at an entry (either comparison predicate), with the zero the f32 zero word. -/
theorem softplus_entry (p : CmpFPredicate) (hp : p = .une ∨ p = .one) (x : EReal) :
    (if Ideal.cmp p (x - 0) (x - 0) = 1#1 then x + 0 else max x 0 + Ideal.log1p (Ideal.exp (-(max (x - 0) (-(x - 0)))))) = sp x := by
  rw [cmp_ne_self p hp, if_neg (by decide), sub_zero]; rfl

end Cert.Loss

end
-- ==== Proof.LibDenseRows.lean ====
/-
  General lemmas for kernels that push rows through dense layers, read at the exact (extended-real) instance.

  * `matmulT_zero_apply`: a matrix product of an [M, K] left operand with an [N, K] right operand, both contracted on
    their LAST axis, into a zero accumulator, is at (p, j) the plain sum over k of left (p, k) times right (j, k).
  * `rowSum_apply`: a sum of an [A, B] array along its last axis is at p the plain sum over k of the array at (p, k).
  * `shapeCast_a_a1_apply`: an [a] vector recast as an [a, 1] column reads, at (i, u), the vector at i.
  * `denseT_relu_apply`: a hidden layer as a kernel body spells it (product over last axes into a zero accumulator, bias
    row repeated down the rows, maximum with zero) is at (p, j) max (∑ₖ h (p, k) · w (j, k) + b j) 0.
  * `rowDot_bias_apply`: an output layer of width one spelt as multiply by the one weight row, sum along the row, add the
    one bias, is at (p, u) ∑ₖ h (p, k) · w (0, k) + b 0.
-/
import Idealize.ShloMosaic.Lib.ValueIdx
import Idealize.ShloMosaic.Lib.ValueLayout
import Idealize.ShloMosaic.PureOps.Ideal.Laws

noncomputable section

open scoped BigOperators

namespace Cert.DenseRows

open Idealize.ShloMosaic Idealize.ShloMosaic.ValueIdx

variable {M K N : ℕ}

/-! ## The operand indices of a product contracted on both last axes -/

/-- The left operand's row is the result's row. -/
theorem lhsT_0 (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's column is the contraction position. -/
theorem lhsT_1 (i : (⟨2, ![M, N]⟩ : Shape).Idx) (q : (DotDims.transposedRhs M K N).contr.Idx) :
    ((DotDims.transposedRhs M K N).lhsIdx i q 1).val = (q ⟨0, Nat.one_pos⟩).val :=
  (DotDims.transposedRhs M K N).lhsIdx_val_of_single rfl i q

/-- The right operand's row is the result's column. -/
theorem rhsT_0 (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's column is the contraction position. -/
theorem rhsT_1 (i : (⟨2, ![M, N]⟩ : Shape).Idx) (q : (DotDims.transposedRhs M K N).contr.Idx) :
    ((DotDims.transposedRhs M K N).rhsIdx i q 1).val = (q ⟨0, Nat.one_pos⟩).val :=
  (DotDims.transposedRhs M K N).rhsIdx_val_of_single rfl i q

/-- A product of an [M, K] array with an [N, K] array over their last axes, into a zero accumulator, at (p, j):
    the sum over k of left (p, k) times right (j, k). No order of summation is left in it: the sum is the
    extended reals' commutative one. -/
theorem matmulT_zero_apply {φ₁ φ₂ : FTy} (prec : Option ContractPrecision) (h : FVec Ideal ⟨2, ![M, K]⟩ φ₁) (w : FVec Ideal ⟨2, ![N, K]⟩ φ₂)
    (p : Fin M) (j : Fin N) :
    FloatOps.matmul (DotDims.transposedRhs M K N) prec h w (constant ⟨2, ![M, N]⟩ .f32 0x00000000#32) (ix2 p j)
      = ∑ k : Fin K, h (ix2 p k) * w (ix2 j k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p j) ((contrEquiv1 (DotDims.transposedRhs M K N) K rfl rfl).symm k) = ix2 p k :=
    funext fun a => Fin.ext (by
      match a with
      | ⟨0, _⟩ => exact lhsT_0 _ _
      | ⟨1, _⟩ => exact (lhsT_1 _ _).trans hk)
  have er : (DotDims.transposedRhs M K N).rhsIdx (ix2 p j) ((contrEquiv1 (DotDims.transposedRhs M K N) K rfl rfl).symm k) = ix2 j k :=
    funext fun a => Fin.ext (by
      match a with
      | ⟨0, _⟩ => exact rhsT_0 _ _
      | ⟨1, _⟩ => exact (rhsT_1 _ _).trans hk)
  rw [el, er]

/-! ## A sum along the last axis -/

/-- The sum of an [A, B] array along its last axis, at p, is the sum over k of the array at (p, k). -/
theorem rowSum_apply {A B : ℕ} {φ : FTy} (src : FVec Ideal ⟨2, ![A, B]⟩ φ) (acc : BitVec φ.bits)
    (h : (⟨2, ![A, B]⟩ : Shape).Reduces [1] ⟨1, ![A]⟩) (hφ : FKind.Formats φ) (hacc : acc = FKind.add.neutral φ hφ) (p : Fin A) :
    multiReduction .add [1] ⟨1, ![A]⟩ src acc h hφ hacc (ix1 p) = ∑ k : Fin B, src (ix2 p k) := by
  refine (Ideal.multiReduction_add_single src acc h hφ hacc (ix1 p)).trans ?_
  refine Finset.sum_congr rfl fun k _ => congrArg src (funext fun c => Fin.ext ?_)
  rw [h.lift_val]
  match c with
  | ⟨0, _⟩ => rfl
  | ⟨1, _⟩ => rfl

/-! ## A vector recast as a column -/

/-- An [a] vector recast as an [a, 1] column reads, at (i, u), the vector at i, whatever the unit coordinate u. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## Whole layers at one entry -/

/-- A hidden layer as a kernel body spells it — the product of [M, K] activations with [J, K] weights over their last
    axes into a zero accumulator, plus the [J] bias recast as one row and repeated down the rows, then the maximum with
    the zero splat — is, at (p, j), max (∑ₖ h (p, k) · w (j, k) + b j) 0. -/
theorem denseT_relu_apply {J : ℕ} {φ₁ φ₂ : FTy} (prec : Option ContractPrecision) (h : FVec Ideal ⟨2, ![M, K]⟩ φ₁)
    (w : FVec Ideal ⟨2, ![J, K]⟩ φ₂) (b : FVec Ideal ⟨1, ![J]⟩ .f32) (hc : (⟨1, ![J]⟩ : Shape).ShapeCasts ⟨2, ![1, J]⟩)
    (hb : (⟨2, ![1, J]⟩ : Shape).Broadcasts ⟨2, ![M, J]⟩) (p : Fin M) (j : Fin J) :
    maximumf (addf (matmul (DotDims.transposedRhs M K J) prec h w (constant ⟨2, ![M, J]⟩ .f32 0x00000000#32))
        (broadcastTo ⟨2, ![M, J]⟩ (shapeCast ⟨2, ![1, J]⟩ b hc) hb))
      (broadcast ⟨2, ![M, J]⟩ (Scalar.ofBits (F := Ideal) .f32 0x00000000#32)) (ix2 p j)
      = max ((∑ k : Fin K, h (ix2 p k) * w (ix2 j k)) + b (ix1 j)) 0 :=
  congrArg₂ max (congrArg₂ (· + ·) (matmulT_zero_apply prec h w p j)
    ((broadcastTo_1b_ab_apply _ hb p j).trans (shapeCast_a_1a_apply b hc 0 j))) Ideal.ofBits_zero_f32

/-- An output layer of width one spelt on the vector unit — the [M, K] activations times the one [1, K] weight row repeated
    down the rows, summed along each row, recast as a column, plus the one bias repeated down the column — is, at
    (p, u), ∑ₖ h (p, k) · w (0, k) + b 0. -/
theorem rowDot_bias_apply (h : FVec Ideal ⟨2, ![M, K]⟩ .f32) (w : FVec Ideal ⟨2, ![1, K]⟩ .f32) (b : FVec Ideal ⟨1, ![1]⟩ .f32)
    (hw : (⟨2, ![1, K]⟩ : Shape).Broadcasts ⟨2, ![M, K]⟩) (hr : (⟨2, ![M, K]⟩ : Shape).Reduces [1] ⟨1, ![M]⟩)
    (hφ : FKind.Formats .f32) (hacc : (0x00000000#32 : BitVec FTy.f32.bits) = FKind.add.neutral .f32 hφ)
    (hs : (⟨1, ![M]⟩ : Shape).ShapeCasts ⟨2, ![M, 1]⟩) (hc : (⟨1, ![1]⟩ : Shape).ShapeCasts ⟨2, ![1, 1]⟩)
    (hb : (⟨2, ![1, 1]⟩ : Shape).Broadcasts ⟨2, ![M, 1]⟩) (p : Fin M) (u : Fin 1) :
    addf (shapeCast ⟨2, ![M, 1]⟩ (multiReduction .add [1] ⟨1, ![M]⟩ (mulf h (broadcastTo ⟨2, ![M, K]⟩ w hw)) 0x00000000#32 hr hφ hacc) hs)
        (broadcastTo ⟨2, ![M, 1]⟩ (shapeCast ⟨2, ![1, 1]⟩ b hc) hb) (ix2 p u)
      = (∑ k : Fin K, h (ix2 p k) * w (ix2 (0 : Fin 1) k)) + b (ix1 (0 : Fin 1)) :=
  congrArg₂ (· + ·)
    (((shapeCast_a_a1_apply _ hs p u).trans (rowSum_apply _ _ hr hφ hacc p)).trans
      (Finset.sum_congr rfl fun k _ => congrArg (h (ix2 p k) * ·) (broadcastTo_1b_ab_apply w hw p k)))
    (((broadcastTo_1b_ab_apply _ hb p u).trans (shapeCast_a_1a_apply b hc 0 u)).trans
      (congrArg (fun t : Fin 1 => b (ix1 t)) (Subsingleton.elim u 0)))

end Cert.DenseRows

end
-- ==== Proof.LibColumns.lean ====
/-
  General lemmas for kernels that keep a per-row number as an [a, 1] column.

  * `broadcastTo_a1_ab_apply`: an [a, 1] column repeated along the rows of an [a, b] array reads, at (p, c), the column at p.
  * `keepdimsSum_apply`: a sum of an [a, b] array along its last axis kept as an [a, 1] column reads, at (p, u), the plain
    sum over k of the array at (p, k).
-/
import Idealize.ShloMosaic.Lib.ValueIdx
import Idealize.ShloMosaic.Lib.ValueLayout
import Idealize.ShloMosaic.Lib.Pipeline.Value
import Idealize.ShloMosaic.PureOps.Ideal.Laws
import proofs.«175871_j72095321030873_2_alg».proof.Proof.LibDenseRows

noncomputable section

open scoped BigOperators

namespace Cert.Columns

open Idealize.ShloMosaic Idealize.ShloMosaic.ValueIdx

/-- An [a, 1] column broadcast to [a, b] reads, at (p, c), the column's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of an [a, b] array along its last axis, kept as an [a, 1] column: at (p, u) the sum over k of the array at (p, k). -/
theorem keepdimsSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hs : (⟨1, ![a]⟩ : Shape).ShapeCasts ⟨2, ![a, 1]⟩) (p : Fin a) (u : Fin 1) :
    shapeCast ⟨2, ![a, 1]⟩ (multiReduction .add [1] ⟨1, ![a]⟩ src acc h hφ hacc) hs (ix2 p u) = ∑ k : Fin b, src (ix2 p k) :=
  (Cert.DenseRows.shapeCast_a_a1_apply _ hs p u).trans (Cert.DenseRows.rowSum_apply src acc h hφ hacc p)

end Cert.Columns

end
-- ==== Proof.KernelBody.lean ====
/-
  The kernel body at one entry. At a grid point the body loads a [16,20] block of positive logits (x0), a [16,20] block of
  weights (x1) and a [16,200] block of negative logits (x2) and stores a [16,1] column: row p of it is
  `Cert.Loss.rowLossG` of the three blocks at row p — the weights divided by their guarded row sum, times logσ of the
  positive logits, summed; plus the sum of logσ of the negated negative logits.
-/
import proofs.«175871_j72095321030873_2_alg».proof.Proof.Gen.KernelIdeal.Frame
import proofs.«175871_j72095321030873_2_alg».proof.Proof.Spec
import proofs.«175871_j72095321030873_2_alg».proof.Proof.LibColumns

noncomputable section
open scoped BigOperators

namespace Cert.KernelIdeal.Body

open Cert.KernelIdeal Cert.KernelIdeal.Gen Idealize.ShloMosaic Idealize.ShloMosaic.ValueIdx Cert.Loss

theorem hz : (![0, 0] : Fin 2 → Nat) = fun _ => 0 := funext fun a => by fin_cases a <;> rfl

/-! ## The scalar spellings -/

/-- The guarded denominator as the body selects it. -/
theorem guardDen_entry (s : EReal) :
    Scalar.select (Ideal.cmp .oeq s (Ideal.ofBits .f32 0x00000000#32)) (Ideal.ofBits .f32 0x3F800000#32) s = guardDen s := by
  rw [Ideal.ofBits_zero_f32]
  unfold guardDen Scalar.select Ideal.cmp
  by_cases h : s = 0 <;> simp [h]

/-- The body's softplus of a (a the negated logit), at an entry: the zero is the f32 zero word, a − 0 = a, 0 − |d| = −|d|. -/
theorem spK_entry (a : EReal) :
    Scalar.select (Ideal.cmp .one (a - Ideal.ofBits .f32 0x00000000#32) (a - Ideal.ofBits .f32 0x00000000#32))
        (a + Ideal.ofBits .f32 0x00000000#32)
        (max a (Ideal.ofBits .f32 0x00000000#32)
          + Ideal.log1p (Ideal.exp (Ideal.ofBits .f32 0x00000000#32
              - max (a - Ideal.ofBits .f32 0x00000000#32) (-(a - Ideal.ofBits .f32 0x00000000#32)))))
      = sp a := by
  rw [Ideal.ofBits_zero_f32, cmp_ne_self .one (Or.inr rfl)]
  unfold Scalar.select
  rw [if_neg (by decide), sub_zero, zero_sub]
  rfl

/-- The body's softplus on an array, at an index. -/
theorem spK_apply (S : Shape) (a : FVec Ideal S .f32) (i : S.Idx) :
    select (cmpf .one (subf a (broadcast S (Scalar.ofBits (F := Ideal) .f32 0x00000000#32))) (subf a (broadcast S (Scalar.ofBits (F := Ideal) .f32 0x00000000#32))))
        (addf a (broadcast S (Scalar.ofBits (F := Ideal) .f32 0x00000000#32)))
        (addf (maximumf a (broadcast S (Scalar.ofBits (F := Ideal) .f32 0x00000000#32)))
          (log1p (exp (subf (broadcast S (Scalar.ofBits (F := Ideal) .f32 0x00000000#32))
            (absf (subf a (broadcast S (Scalar.ofBits (F := Ideal) .f32 0x00000000#32)))))))) i
      = sp (a i) :=
  spK_entry (a i)

/-- 0 − a is −a, the zero the f32 zero word. -/
theorem zsub (a : EReal) : Ideal.ofBits .f32 0x00000000#32 - a = -a := by
  rw [Ideal.ofBits_zero_f32, zero_sub]

/-! ## The positive part -/

/-- The weights' guarded denominator, broadcast along the row, at (p, j). -/
theorem denom_entry (x1 : Vec Ideal S16x20 .f32) (p : Fin 16) (j : Fin 20) :
    broadcastTo S16x20
        (select
          (cmpf .oeq (shapeCast S16x1 (multiReduction (F := Ideal) .add [1] S16 x1 0x00000000#32 reduces_S16x20_S16 (.inl rfl) rfl) shapeCasts_S16_S16x1)
            (broadcast S16x1 (Scalar.ofBits (F := Ideal) .f32 0x00000000#32)))
          (broadcast S16x1 (Scalar.ofBits (F := Ideal) .f32 0x3F800000#32))
          (shapeCast S16x1 (multiReduction (F := Ideal) .add [1] S16 x1 0x00000000#32 reduces_S16x20_S16 (.inl rfl) rfl) shapeCasts_S16_S16x1))
        broadcasts_S16x1_S16x20 (ix2 p j)
      = guardDen (∑ j' : Fin 20, x1 (ix2 p j')) := by
  refine (Cert.Columns.broadcastTo_a1_ab_apply _ _ p j).trans ?_
  have hD : shapeCast S16x1 (multiReduction (F := Ideal) .add [1] S16 x1 0x00000000#32 reduces_S16x20_S16 (.inl rfl) rfl) shapeCasts_S16_S16x1
      (ix2 p (0 : Fin 1)) = ∑ j' : Fin 20, x1 (ix2 p j') :=
    Cert.Columns.keepdimsSum_apply (a := 16) (b := 20) x1 _ _ _ _ _ p 0
  refine Eq.trans ?_ (guardDen_entry _)
  show Scalar.select (Ideal.cmp .oeq _ _) _ _ = _
  rw [hD]
  rfl

/-- The weighted positive part of row p. -/
theorem pay2_entry (x0 x1 : Vec Ideal S16x20 .f32) (p : Fin 16) :
    k0_pay2 (F := Ideal) x0 x1 (ix2 p (0 : Fin 1))
      = ∑ j : Fin 20, Ideal.div (x1 (ix2 p j)) (guardDen (∑ j' : Fin 20, x1 (ix2 p j'))) * ls (x0 (ix2 p j)) := by
  unfold k0_pay2
  refine (Cert.Columns.keepdimsSum_apply (a := 16) (b := 20) _ _ _ _ _ _ p 0).trans ?_
  refine Finset.sum_congr rfl fun j _ => ?_
  refine congrArg₂ (fun a b : EReal => a * b) (congrArg (Ideal.div (x1 (ix2 p j))) (denom_entry x1 p j)) ?_
  refine (zsub _).trans (congrArg Neg.neg ?_)
  refine (spK_apply S16x20 _ (ix2 p j)).trans (congrArg sp ?_)
  refine (zsub _).trans (congrArg Neg.neg ?_)
  exact congrFun (shapeCast_self x0 _) _

/-! ## The negative part -/

/-- The negative part of row p. -/
theorem neg_entry (x2 : Vec Ideal S16x200 .f32) (p : Fin 16) (k : Fin 200) :
    subf (broadcast S16x200 (Scalar.ofBits (F := Ideal) .f32 0x00000000#32))
        (select (cmpf .one (k0_pay5 (F := Ideal) x2) (k0_pay5 x2))
          (addf (k0_pay3 x2) (broadcast S16x200 (Scalar.ofBits (F := Ideal) .f32 0x00000000#32)))
          (addf (k0_pay4 x2) (log1p (exp (subf (broadcast S16x200 (Scalar.ofBits (F := Ideal) .f32 0x00000000#32)) (absf (k0_pay5 x2)))))))
        (ix2 p k)
      = ls (-(x2 (ix2 p k))) := by
  refine (zsub _).trans (congrArg Neg.neg ?_)
  unfold k0_pay5 k0_pay4
  refine (spK_apply S16x200 (k0_pay3 x2) (ix2 p k)).trans (congrArg sp ?_)
  unfold k0_pay3
  refine (zsub _).trans (congrArg Neg.neg ?_)
  refine (zsub _).trans (congrArg Neg.neg ?_)
  exact congrFun (shapeCast_self x2 _) _

/-- Row p of the column the body stores. -/
theorem out_entry (x0 x1 : Vec Ideal S16x20 .f32) (x2 : Vec Ideal S16x200 .f32) (p : Fin 16) :
    out0_3 (F := Ideal) x0 x1 x2 (ix2 p (0 : Fin 1))
      = rowLossG (fun p j => x0 (ix2 p j)) (fun p j => x1 (ix2 p j)) (fun p k => x2 (ix2 p k)) p := by
  unfold out0_3
  rw [View.canon_unit_zero hz]
  simp only [View.ld_unit_zero (S := S16x20) hz, View.ld_unit_zero (S := S16x200) hz]
  unfold k0_pay1 rowLossG
  refine congrArg₂ (fun a b : EReal => a + b) (pay2_entry x0 x1 p) ?_
  refine (Cert.Columns.keepdimsSum_apply (a := 16) (b := 200) _ _ _ _ _ _ p 0).trans ?_
  exact Finset.sum_congr rfl fun k _ => neg_entry x2 p k

end Cert.KernelIdeal.Body

end
-- ==== Proof.LibHostSums.lean ====
/-
  General lemmas: the host's float sums read at an index, over the extended reals.

  * `hostRowSum_apply`: the host's sum of an [a, b] array along its last axis, at p, is the initial value plus the plain sum
    over k of the array at (p, k).
  * `sum_idx1`: a sum over the indices of a one-axis shape is the sum over its coordinate.
  * `hostTotal1_apply`: the host's sum of an [a] vector into a scalar is the initial value plus the sum over its entries.
  * `hostTotal21_apply`: the host's sum of an [a, 1] column over both axes into a scalar is the initial value plus the sum
    over p of the column at (p, 0).
-/
import Idealize.ShloMosaic.Lib.ValueIdx
import Idealize.ShloMosaic.Lib.IdealHost
import Idealize.ShloMosaic.PureOps.Ideal.Laws

noncomputable section

open scoped BigOperators

namespace Cert.HostSums

open Idealize.ShloMosaic Idealize.ShloMosaic.ValueIdx

/-- The host's sum of an [a, b] array along its last axis, from an initial value, at p. -/
theorem hostRowSum_apply {a b : ℕ} {φ : FTy} {u : Shape} (x : FVec Ideal ⟨2, ![a, b]⟩ φ) (init : u.Idx → Ideal φ)
    (h : (⟨2, ![a, b]⟩ : Shape).ReducesTo [1] ⟨1, ![a]⟩) (hu : 0 < u.numel) (p : Fin a) :
    Host.reduceAdd x init h hu (ix1 p) = init (Shape.Idx.first hu) + ∑ k : Fin b, x (ix2 p k) := by
  have hr : (⟨2, ![a, b]⟩ : Shape).Reduces [1] ⟨1, ![a]⟩ := ⟨h.1, Nat.one_pos, h.2⟩
  refine (hostReduceAdd_apply x init h hu (ix1 p)).trans ?_
  refine (Ideal.hostReduceAdd_single h hr x _ (ix1 p)).trans ?_
  refine congrArg (fun s => init (Shape.Idx.first hu) + s) ?_
  refine Finset.sum_congr rfl fun k _ => congrArg x (funext fun c => Fin.ext ?_)
  rw [hr.lift_val]
  match c with
  | ⟨0, _⟩ => rfl
  | ⟨1, _⟩ => rfl

/-- A one-axis shape's indices are its coordinate. -/
def idxEquiv1 {n : ℕ} : (⟨1, ![n]⟩ : Shape).Idx ≃ Fin n where
  toFun i := i 0
  invFun := ix1
  left_inv i := (eq_ix1 i).symm
  right_inv _ := rfl

/-- … so a sum over them is the sum over the coordinate. -/
theorem sum_idx1 {M : Type*} [AddCommMonoid M] {n : ℕ} (f : (⟨1, ![n]⟩ : Shape).Idx → M) : ∑ i, f i = ∑ a : Fin n, f (ix1 a) :=
  (Equiv.sum_comp (idxEquiv1 (n := n)).symm f).symm

/-- The host's sum of an [a] vector into a scalar. -/
theorem hostTotal1_apply {a : ℕ} {φ : FTy} {u : Shape} (x : FVec Ideal ⟨1, ![a]⟩ φ) (init : u.Idx → Ideal φ)
    (h : (⟨1, ![a]⟩ : Shape).ReducesTo [0] ⟨0, ![]⟩) (hu : 0 < u.numel) :
    Host.reduceAdd x init h hu ix0 = init (Shape.Idx.first hu) + ∑ p : Fin a, x (ix1 p) := by
  refine (hostReduceAdd_apply x init h hu ix0).trans ?_
  refine (Ideal.hostReduceAdd_total h (fun b => b.elim0) x _ ix0).trans ?_
  exact congrArg (fun s => init (Shape.Idx.first hu) + s) (sum_idx1 x)

/-- The host's sum of an [a, 1] column over both axes into a scalar. -/
theorem hostTotal21_apply {a : ℕ} {φ : FTy} {u : Shape} (x : FVec Ideal ⟨2, ![a, 1]⟩ φ) (init : u.Idx → Ideal φ)
    (h : (⟨2, ![a, 1]⟩ : Shape).ReducesTo [0, 1] ⟨0, ![]⟩) (hu : 0 < u.numel) :
    Host.reduceAdd x init h hu ix0 = init (Shape.Idx.first hu) + ∑ p : Fin a, x (ix2 p (0 : Fin 1)) := by
  refine (hostReduceAdd_apply x init h hu ix0).trans ?_
  refine (Ideal.hostReduceAdd_total h (fun b => b.elim0) x _ ix0).trans ?_
  refine congrArg (fun s => init (Shape.Idx.first hu) + s) ((sum_idx2 x).trans ?_)
  exact Finset.sum_congr rfl fun p _ => Fin.sum_univ_one _

end Cert.HostSums

end
-- ==== Proof.LibTypedRefs.lean ====
/-
  General lemmas about typed references (a buffer reference carrying the tensor value's type), used when a host program's
  outlined function is read operation by operation: an operation over typed references moves its operands from the buffers'
  own types to the value's type and its result back, by transport along the reference's type equation.

  * `ofBuf_toBuf` / `toBuf_ofBuf`: the two transports are inverse to each other, so a value written by one such operation and
    read by the next is read as it was written.
-/
import Idealize.ShloMosaic.Lib.StableHlo

noncomputable section

namespace Cert.TypedRefs

open Idealize.ShloMosaic Idealize.ShloMosaic.StableHlo

variable {sig : RefSig} {Val : EltTy → Type} {T : BufTy}

/-- Contents moved to the buffer's type and back are the contents. -/
theorem ofBuf_toBuf (x : TRef sig T) (v : T.Contents Val) : x.ofBuf (x.toBuf v) = v := by
  obtain ⟨r, h, h2, h3⟩ := x
  subst h
  rfl

/-- Contents moved to the value's type and back are the contents. -/
theorem toBuf_ofBuf (x : TRef sig T) (v : x.ref.ty.Contents Val) : x.toBuf (x.ofBuf v) = v := by
  obtain ⟨r, h, h2, h3⟩ := x
  subst h
  rfl

end Cert.TypedRefs

end
-- ==== Proof.KernelValue.lean ====
/-
  The kernel program's value. The region's output array is a [2048,1] column: point t of the 128 grid points writes rows
  16·t … 16·t+15, each row the body's `rowLossG` of the same rows of the looked-up logits and of the weights, so the whole
  column is one function `col` of the arrays the region finds; the host lines after the region sum the column and divide
  by 2048. The host lines before the region are the two table look-ups `takeP`, `takeN`.
-/
import proofs.«175871_j72095321030873_2_alg».proof.Proof.KernelBody
import proofs.«175871_j72095321030873_2_alg».proof.Proof.LibHostSums
import proofs.«175871_j72095321030873_2_alg».proof.Proof.LibTypedRefs
import Idealize.ShloMosaic.Lib.Pipeline.Value
import Idealize.ShloMosaic.Lib.StableHlo.Run

noncomputable section
open scoped BigOperators

namespace Cert.KernelIdeal.Value

open Cert.KernelIdeal Cert.KernelIdeal.Gen Idealize.ShloMosaic Idealize.ShloMosaic.TcCoe Idealize.SL.Sem
open Idealize.ShloMosaic.ValueIdx Idealize.ShloMosaic.StableHlo Cert.Loss
open Idealize.ShloMosaic.Pipeline (Dat)

variable (m : (ℓ : Loc nD τ sig) → Buf (Elt Ideal) ℓ) (ρ : Dev nD → PrngReg)

/-- A row's loss depends only on that row of the three arrays. -/
theorem rowLossG_congr {R R' : Type} (P tv : R → Fin 20 → EReal) (Ng : R → Fin 200 → EReal)
    (P' tv' : R' → Fin 20 → EReal) (Ng' : R' → Fin 200 → EReal) (r : R) (r' : R')
    (hP : ∀ j, P r j = P' r' j) (htv : ∀ j, tv r j = tv' r' j) (hN : ∀ k, Ng r k = Ng' r' k) :
    rowLossG P tv Ng r = rowLossG P' tv' Ng' r' := by
  unfold rowLossG
  simp only [hP, htv, hN]

/-! ## The arrays the region finds -/

attribute [local irreducible] Host.reduce Host.gather in
set_option maxRecDepth 16384 in
set_option maxHeartbeats 800000 in
/-- The positive logits: the first look-up of the launch arrays. -/
theorem V_pos (c : Dev nD) :
    @Eq (SP.Idx → EReal) (V m c main_v0) (takeP (F := Ideal) (m ((c : Thread nD τ).loc main_arg0)) (m ((c : Thread nD τ).loc main_arg1))) := by
  dsimp only [Gen.V, Gen.V0]
  simp only [Gen.hostOps0, Gen.hostOps0_1, List.flatten_cons, List.flatten_nil, List.append_nil, List.cons_append, List.nil_append]
  after_results_simp
  simp only [Cert.TypedRefs.ofBuf_toBuf]
  rfl

attribute [local irreducible] Host.reduce Host.gather in
set_option maxRecDepth 16384 in
set_option maxHeartbeats 800000 in
/-- The negative logits: the second look-up. -/
theorem V_neg (c : Dev nD) :
    @Eq (SN.Idx → EReal) (V m c main_v1) (takeN (F := Ideal) (m ((c : Thread nD τ).loc main_arg0)) (m ((c : Thread nD τ).loc main_arg3))) := by
  dsimp only [Gen.V, Gen.V0]
  simp only [Gen.hostOps0, Gen.hostOps0_1, List.flatten_cons, List.flatten_nil, List.append_nil, List.cons_append, List.nil_append]
  after_results_simp
  simp only [Cert.TypedRefs.ofBuf_toBuf]
  rfl

/-! ## The column the region writes -/

/-- The output column as one function of the arrays the region finds. -/
def col (c : Dev nD) : S2048x1.Idx → EReal := fun i =>
  rowLossG (fun (r : Fin 2048) j => V m c main_v0 (ix2 r j)) (fun (r : Fin 2048) j => V m c main_arg2 (ix2 r j))
    (fun (r : Fin 2048) k => V m c main_v1 (ix2 r k)) (i 0)

/-- Every window's block index at point t is (t, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- A window's block at a point reads its array where the block sits. -/
theorem blk0_read (c : Dev nD) (t : Fin cfg0.N) (y : S16x20.Idx) :
    iblk m c 0 t y = V m c main_v0 (((cfg0.win 0).blk t).view.emb y) := rfl
theorem blk1_read (c : Dev nD) (t : Fin cfg0.N) (y : S16x20.Idx) :
    iblk m c 1 t y = V m c main_arg2 (((cfg0.win 1).blk t).view.emb y) := rfl
theorem blk2_read (c : Dev nD) (t : Fin cfg0.N) (y : S16x200.Idx) :
    iblk m c 2 t y = V m c main_v1 (((cfg0.win 2).blk t).view.emb y) := rfl

/-- WHAT POINT t WRITES BACK is block t of the column. -/
theorem flushed_eq (c : Dev nD) (t : Fin cfg0.N) :
    (dats m 0 c).flushed 3 t = ((cfg0.win 3).blk t).view.read (Elt Ideal) (col m c) := by
  show (cfg0.win 3).cut (grid0.coords t) ((dats m 0 c).after 3 t) = _
  rw [after0_3]
  obtain ⟨e00, e01, e10, e11, e20, e21, e30, e31⟩ := idx_facts t
  have ht : t.val < 128 := lt_of_lt_of_eq t.isLt N_0
  funext y
  obtain ⟨p, q, rfl⟩ : ∃ (p : Fin 16) (q : Fin 1), y = ix2 p q := ⟨y 0, y 1, eq_ix2 y⟩
  obtain rfl : q = 0 := Subsingleton.elim _ _
  have h3 : ((cfg0.win 3).blk t).view.emb (ix2 p (0 : Fin 1)) = ix2 (⟨t.val * 16 + p.val, by omega⟩ : Fin 2048) (0 : Fin 1) := by
    funext a; apply Fin.ext
    match a with
    | ⟨0, _⟩ => show win0_3.index t (0 : Fin 2) * 16 + 1 * p.val = t.val * 16 + p.val; omega
    | ⟨1, _⟩ => show win0_3.index t (1 : Fin 2) * 1 + 1 * 0 = 0; omega
  show out0_3 (iblk m c 0 t) (iblk m c 1 t) (iblk m c 2 t) (ix2 p (0 : Fin 1)) = col m c (((cfg0.win 3).blk t).view.emb (ix2 p (0 : Fin 1)))
  rw [h3]
  refine (Cert.KernelIdeal.Body.out_entry (iblk m c 0 t) (iblk m c 1 t) (iblk m c 2 t) p).trans ?_
  refine rowLossG_congr _ _ _ _ _ _ p (⟨t.val * 16 + p.val, by omega⟩ : Fin 2048) (fun j => ?_) (fun j => ?_) (fun k => ?_)
  · refine (blk0_read m c t (ix2 p j)).trans (congrArg (V m c main_v0) (funext fun a => Fin.ext ?_))
    match a with
    | ⟨0, _⟩ => show win0_0.index t (0 : Fin 2) * 16 + 1 * p.val = t.val * 16 + p.val; omega
    | ⟨1, _⟩ => show win0_0.index t (1 : Fin 2) * 20 + 1 * j.val = j.val; omega
  · refine (blk1_read m c t (ix2 p j)).trans (congrArg (V m c main_arg2) (funext fun a => Fin.ext ?_))
    match a with
    | ⟨0, _⟩ => show win0_1.index t (0 : Fin 2) * 16 + 1 * p.val = t.val * 16 + p.val; omega
    | ⟨1, _⟩ => show win0_1.index t (1 : Fin 2) * 20 + 1 * j.val = j.val; omega
  · refine (blk2_read m c t (ix2 p k)).trans (congrArg (V m c main_v1) (funext fun a => Fin.ext ?_))
    match a with
    | ⟨0, _⟩ => show win0_2.index t (0 : Fin 2) * 16 + 1 * p.val = t.val * 16 + p.val; omega
    | ⟨1, _⟩ => show win0_2.index t (1 : Fin 2) * 200 + 1 * k.val = k.val; omega

/-- An index of the column is in point t's block iff each coordinate is in the block's range on its axis. -/
theorem mem_blk (t : Fin cfg0.N) (i : S2048x1.Idx) :
    i ∈ ((cfg0.win 3).blk t).view.set ↔ ∀ a : Fin 2, win0_3.index t a * S16x1.size a ≤ (i a).val ∧ (i a).val < win0_3.index t a * S16x1.size a + S16x1.size a := by
  show i ∈ ((View.whole main_v2).slice (win0_3.rect t)).set ↔ _
  rw [View.set_slice_whole, Rect.mem_set_unit]
  exact Iff.rfl

/-- Every row is some point's: row r belongs to point r / 16. -/
theorem cover (i : S2048x1.Idx) : ∃ t : Fin cfg0.N, (cfg0.win 3).flush t = true ∧ i ∈ ((cfg0.win 3).blk t).view.set := by
  have hi0 : (i 0).val < 2048 := (i 0).isLt
  have hi1 : (i 1).val < 1 := (i 1).isLt
  have hN : (i 0).val / 16 < cfg0.N := by rw [show cfg0.N = 128 from N_0]; omega
  refine ⟨⟨(i 0).val / 16, hN⟩, flush0_3 _, ?_⟩
  obtain ⟨-, -, -, -, -, -, e30, e31⟩ := idx_facts ⟨(i 0).val / 16, hN⟩
  rw [mem_blk]
  intro a
  match a with
  | ⟨0, _⟩ =>
    show win0_3.index ⟨(i 0).val / 16, hN⟩ (0 : Fin 2) * 16 ≤ (i 0).val ∧ (i 0).val < win0_3.index ⟨(i 0).val / 16, hN⟩ (0 : Fin 2) * 16 + 16
    have e : win0_3.index ⟨(i 0).val / 16, hN⟩ (0 : Fin 2) = (i 0).val / 16 := e30
    omega
  | ⟨1, _⟩ =>
    show win0_3.index ⟨(i 0).val / 16, hN⟩ (1 : Fin 2) * 1 ≤ (i 1).val ∧ (i 1).val < win0_3.index ⟨(i 0).val / 16, hN⟩ (1 : Fin 2) * 1 + 1
    omega

/-- THE COLUMN after the run. -/
theorem final (c : Dev nD) : (dats m 0 c).arrAt 3 cfg0.N = col m c :=
  (dats m 0 c).arrAt_eq_of_cover 3 (col m c) (fun t _ => flushed_eq m c t) cover

/-! ## The host lines after the region, and the run -/

/-- The program's result as a function of the column: its sum over both axes from zero, divided by 2048. -/
def kernOut (A : S2048x1.Idx → EReal) : S_.Idx → EReal :=
  Host.divf (F := Ideal) (Host.reduceAdd (F := Ideal) A (constant (F := Ideal) S_ .f32 0x00000000#32) reducesTo_S2048x1_S_d0_1 h_S_)
    (constant (F := Ideal) S_ .f32 0x45000000#32)

/-- The result buffer after the lines that follow the region. -/
theorem tail_eq (c : Dev nD) :
    Pipeline.afterTail₀ cfgs (dats m) 0 (V0 m) [hostOps1] c main_v4 = kernOut (col m c) := by
  unfold Pipeline.afterTail₀
  show StableHlo.after hostOps1 _ (Proc.devRef .tc main_v4) = _
  after_results
  unfold kernOut
  rw [(Pipeline.withArrays_arr spec0 launch0.win.arr_inj c _ _ 3).trans (final m c)]

/-- The kernel program's run: the result at `kernOut` of the column, the arguments unchanged. -/
theorem run : θ_run defs (onTc (τ := τ) (main (F := Ideal))) ⟨m, fun _ => 0, ρ⟩ fun r => ∀ c : Dev nD,
      r.2.mem ((c.tc : Thread nD τ).loc main_v4) = kernOut (col m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h c).2 main_v4 (Pipeline.mem_restRefs_of main_v4 (by decide) (by decide))).trans (tail_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      ((h c).1 1).trans (((dats m 0 c).arrAt_in 1 rfl _).trans ((A_eq m c 1).trans (V_main_arg2 m c))),
      (((h c).2 main_arg3 (Pipeline.mem_restRefs_of main_arg3 (by decide) (by decide))).trans (W_main_arg3 m (dats m) c))⟩)
    (run_main m ρ)

/-- The result at its one entry: the mean of the column. -/
theorem kernOut_apply (A : S2048x1.Idx → EReal) : kernOut A ix0 = meanLoss (fun r => A (ix2 r (0 : Fin 1))) := by
  unfold kernOut meanLoss
  show Ideal.div (Host.reduceAdd (F := Ideal) _ _ _ _ ix0) (Ideal.ofBits .f32 0x45000000#32) = _
  refine congrArg (fun a => Ideal.div a (Ideal.ofBits .f32 0x45000000#32)) ?_
  refine (Cert.HostSums.hostTotal21_apply _ _ _ _).trans ?_
  exact congrArg₂ (fun a b : EReal => a + b) Ideal.ofBits_zero_f32 rfl

end Cert.KernelIdeal.Value

end
-- ==== Proof.RefOps.lean ====
/-
  The reference program's @main as ONE straight line: the list of its 92 host operations, each outlined function's
  operations standing at its call over that call's own buffers, and the fact that @main is that line.
-/
import proofs.«175871_j72095321030873_2_alg».proof.Proof.Gen.ReferenceIdeal
import Idealize.ShloMosaic.Lib.StableHlo.Run
import Idealize.ShloMosaic.Lib.Pipeline.Regions

noncomputable section

namespace Cert.ReferenceIdeal.Line

open Cert.ReferenceIdeal Idealize.ShloMosaic Idealize.ShloMosaic.TcCoe Idealize.SL.Sem Idealize.ShloMosaic.StableHlo
open Cert.ReferenceIdeal.Facts₀

variable {F : FTy → Type} [FloatOps F]

/-- @main's operations, in order. -/
abbrev ops : List (HloOp τ sig (Elt F)) :=
  [ StableHlo.TRef.nullary main_call0.c (constantI S_ 32 0#32),
    StableHlo.TRef.unary main_call0.c main_call0.v0 (broadcastInDim S2048x20 ![] bcast_S_S2048x20),
    StableHlo.TRef.binary (.of main_arg1) main_call0.v0 main_call0.v1 (cmpi .slt),
    StableHlo.TRef.nullary main_call0.c_0 (constantI S_ 32 100000#32),
    StableHlo.TRef.unary main_call0.c_0 main_call0.v2 (broadcastInDim S2048x20 ![] bcast_S_S2048x20),
    StableHlo.TRef.binary (.of main_arg1) main_call0.v2 main_call0.v3 addi,
    StableHlo.TRef.ternary main_call0.v1 main_call0.v3 (.of main_arg1) main_call0.v4 select,
    StableHlo.TRef.reshape main_call0.v4 main_call0.v5 rfl shapeCasts_S2048x20_S2048x20x1,
    StableHlo.TRef.nullary main_call0.c_1 (constantI S1 32 99999#32),
    StableHlo.TRef.nullary main_call0.c_2 (constantI S_ 32 0#32),
    StableHlo.TRef.unary main_call0.c_2 main_call0.v6 (broadcastInDim S2048x20x1 ![] bcast_S_S2048x20x1),
    StableHlo.TRef.binary main_call0.v5 main_call0.v6 main_call0.v7 (cmpi .sge),
    StableHlo.TRef.unary main_call0.c_1 main_call0.v8 (broadcastInDim S1x1x1 ![2] bcast_S1_S1x1x1_2),
    StableHlo.TRef.unary main_call0.v8 main_call0.v9 (broadcastInDim S2048x20x1 ![0, 1, 2] bcast_S1x1x1_S2048x20x1_0_1_2),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S2048x20x1_S2048x20_d2 h_S_),
    StableHlo.TRef.binary (.of main_arg0) main_call0.v5 main_call0.v13 (fun x i => Host.gather gather_S2048x100000_S2048x20x1_S2048x20_n_1_0_0_1_2_11 x i),
    StableHlo.TRef.nullary main_call0.cst (constant S_ .f32 0x7FC00000#32),
    StableHlo.TRef.unary main_call0.cst main_call0.v14 (broadcastInDim S2048x20 ![] bcast_S_S2048x20),
    StableHlo.TRef.ternary main_call0.v12 main_call0.v13 main_call0.v14 main_call0.v15 select,
    StableHlo.nullary main_cst (constant S_ .f32 0x00000000#32),
    StableHlo.binary main_arg2 main_cst main_v1 ((fun x v => Host.reduceAdd x v reducesTo_S2048x20_S2048_d1 h_S_) : (⟨S2048x20, .f32⟩ : BufTy).Contents (Elt F) → (⟨S_, .f32⟩ : BufTy).Contents (Elt F) → (⟨S2048, .f32⟩ : BufTy).Contents (Elt F)),
    StableHlo.unary main_v1 main_v2 (broadcastInDim S2048x1 ![0] bcast_S2048_S2048x1_0 : (⟨S2048, .f32⟩ : BufTy).Contents (Elt F) → (⟨S2048x1, .f32⟩ : BufTy).Contents (Elt F)),
    StableHlo.unary main_v2 main_v3 (broadcastInDim S2048x20 ![0, 1] bcast_S2048x1_S2048x20_0_1 : (⟨S2048x1, .f32⟩ : BufTy).Contents (Elt F) → (⟨S2048x20, .f32⟩ : BufTy).Contents (Elt F)),
    StableHlo.binary main_arg2 main_v3 main_v4 (Host.divf : (⟨S2048x20, .f32⟩ : BufTy).Contents (Elt F) → (⟨S2048x20, .f32⟩ : BufTy).Contents (Elt F) → (⟨S2048x20, .f32⟩ : BufTy).Contents (Elt F)),
    StableHlo.TRef.unary (.of main_v0) main_call1.v0 Host.negf,
    StableHlo.TRef.nullary main_call1.call0.cst (constant S_ .f32 0x00000000#32),
    StableHlo.TRef.unary main_call1.call0.cst main_call1.call0.v0 (broadcastInDim S2048x20 ![] bcast_S_S2048x20),
    StableHlo.TRef.binary main_call1.v0 main_call1.call0.v0 main_call1.call0.v1 maximumf,
    StableHlo.TRef.unary main_call1.call0.cst main_call1.call0.v2 (broadcastInDim S2048x20 ![] bcast_S_S2048x20),
    StableHlo.TRef.binary main_call1.v0 main_call1.call0.v2 main_call1.call0.v3 subf,
    StableHlo.TRef.binary main_call1.call0.v3 main_call1.call0.v3 main_call1.call0.v4 (cmpf .une),
    StableHlo.TRef.unary main_call1.call0.cst main_call1.call0.v5 (broadcastInDim S2048x20 ![] bcast_S_S2048x20),
    StableHlo.TRef.binary main_call1.v0 main_call1.call0.v5 main_call1.call0.v6 addf,
    StableHlo.TRef.unary main_call1.call0.v3 main_call1.call0.v7 Host.absf,
    StableHlo.TRef.unary main_call1.call0.v7 main_call1.call0.v8 Host.negf,
    StableHlo.TRef.unary main_call1.call0.v8 main_call1.call0.v9 Host.exp,
    StableHlo.TRef.unary main_call1.call0.v9 main_call1.call0.v10 Host.log1p,
    StableHlo.TRef.binary main_call1.call0.v1 main_call1.call0.v10 main_call1.call0.v11 addf,
    StableHlo.TRef.ternary main_call1.call0.v4 main_call1.call0.v6 main_call1.call0.v11 main_call1.call0.v12 select,
    StableHlo.TRef.unary main_call1.call0.v12 main_call1.v2 Host.negf,
    StableHlo.binary main_v4 main_v5 main_v6 (mulf : (⟨S2048x20, .f32⟩ : BufTy).Contents (Elt F) → (⟨S2048x20, .f32⟩ : BufTy).Contents (Elt F) → (⟨S2048x20, .f32⟩ : BufTy).Contents (Elt F)),
    StableHlo.nullary main_cst_0 (constant S_ .f32 0x00000000#32),
    StableHlo.binary main_v6 main_cst_0 main_v7 ((fun x v => Host.reduceAdd x v reducesTo_S2048x20_S2048_d1 h_S_) : (⟨S2048x20, .f32⟩ : BufTy).Contents (Elt F) → (⟨S_, .f32⟩ : BufTy).Contents (Elt F) → (⟨S2048, .f32⟩ : BufTy).Contents (Elt F)),
    StableHlo.TRef.nullary main_call2.c (constantI S_ 32 0#32),
    StableHlo.TRef.unary main_call2.c main_call2.v0 (broadcastInDim S2048x200 ![] bcast_S_S2048x200),
    StableHlo.TRef.binary (.of main_arg3) main_call2.v0 main_call2.v1 (cmpi .slt),
    StableHlo.TRef.nullary main_call2.c_0 (constantI S_ 32 100000#32),
    StableHlo.TRef.unary main_call2.c_0 main_call2.v2 (broadcastInDim S2048x200 ![] bcast_S_S2048x200),
    StableHlo.TRef.binary (.of main_arg3) main_call2.v2 main_call2.v3 addi,
    StableHlo.TRef.ternary main_call2.v1 main_call2.v3 (.of main_arg3) main_call2.v4 select,
    StableHlo.TRef.reshape main_call2.v4 main_call2.v5 rfl shapeCasts_S2048x200_S2048x200x1,
    StableHlo.TRef.nullary main_call2.c_1 (constantI S1 32 99999#32),
    StableHlo.TRef.nullary main_call2.c_2 (constantI S_ 32 0#32),
    StableHlo.TRef.unary main_call2.c_2 main_call2.v6 (broadcastInDim S2048x200x1 ![] bcast_S_S2048x200x1),
    StableHlo.TRef.binary main_call2.v5 main_call2.v6 main_call2.v7 (cmpi .sge),
    StableHlo.TRef.unary main_call2.c_1 main_call2.v8 (broadcastInDim S1x1x1 ![2] bcast_S1_S1x1x1_2),
    StableHlo.TRef.unary main_call2.v8 main_call2.v9 (broadcastInDim S2048x200x1 ![0, 1, 2] bcast_S1x1x1_S2048x200x1_0_1_2),
    StableHlo.TRef.binary main_call2.v5 main_call2.v9 main_call2.v10 (cmpi .sle),
    StableHlo.TRef.binary main_call2.v7 main_call2.v10 main_call2.v11 andi,
    StableHlo.TRef.nullary main_call2.c_3 (constantI S_ 1 1#1),
    StableHlo.TRef.binary main_call2.v11 main_call2.c_3 main_call2.v12 (fun x v => Host.reduce IntOp.andi x v reducesTo_S2048x200x1_S2048x200_d2 h_S_),
    StableHlo.TRef.binary (.of main_arg0) main_call2.v5 main_call2.v13 (fun x i => Host.gather gather_S2048x100000_S2048x200x1_S2048x200_n_1_0_0_1_2_11 x i),
    StableHlo.TRef.nullary main_call2.cst (constant S_ .f32 0x7FC00000#32),
    StableHlo.TRef.unary main_call2.cst main_call2.v14 (broadcastInDim S2048x200 ![] bcast_S_S2048x200),
    StableHlo.TRef.ternary main_call2.v12 main_call2.v13 main_call2.v14 main_call2.v15 select,
    StableHlo.unary main_v8 main_v9 (Host.negf : (⟨S2048x200, .f32⟩ : BufTy).Contents (Elt F) → (⟨S2048x200, .f32⟩ : BufTy).Contents (Elt F)),
    StableHlo.TRef.unary (.of main_v9) main_call3.v0 Host.negf,
    StableHlo.TRef.nullary main_call3.call0.cst (constant S_ .f32 0x00000000#32),
    StableHlo.TRef.unary main_call3.call0.cst main_call3.call0.v0 (broadcastInDim S2048x200 ![] bcast_S_S2048x200),
    StableHlo.TRef.binary main_call3.v0 main_call3.call0.v0 main_call3.call0.v1 maximumf,
    StableHlo.TRef.unary main_call3.call0.cst main_call3.call0.v2 (broadcastInDim S2048x200 ![] bcast_S_S2048x200),
    StableHlo.TRef.binary main_call3.v0 main_call3.call0.v2 main_call3.call0.v3 subf,
    StableHlo.TRef.binary main_call3.call0.v3 main_call3.call0.v3 main_call3.call0.v4 (cmpf .une),
    StableHlo.TRef.unary main_call3.call0.cst main_call3.call0.v5 (broadcastInDim S2048x200 ![] bcast_S_S2048x200),
    StableHlo.TRef.binary main_call3.v0 main_call3.call0.v5 main_call3.call0.v6 addf,
    StableHlo.TRef.unary main_call3.call0.v3 main_call3.call0.v7 Host.absf,
    StableHlo.TRef.unary main_call3.call0.v7 main_call3.call0.v8 Host.negf,
    StableHlo.TRef.unary main_call3.call0.v8 main_call3.call0.v9 Host.exp,
    StableHlo.TRef.unary main_call3.call0.v9 main_call3.call0.v10 Host.log1p,
    StableHlo.TRef.binary main_call3.call0.v1 main_call3.call0.v10 main_call3.call0.v11 addf,
    StableHlo.TRef.ternary main_call3.call0.v4 main_call3.call0.v6 main_call3.call0.v11 main_call3.call0.v12 select,
    StableHlo.TRef.unary main_call3.call0.v12 main_call3.v2 Host.negf,
    StableHlo.nullary main_cst_1 (constant S_ .f32 0x00000000#32),
    StableHlo.binary main_v10 main_cst_1 main_v11 ((fun x v => Host.reduceAdd x v reducesTo_S2048x200_S2048_d1 h_S_) : (⟨S2048x200, .f32⟩ : BufTy).Contents (Elt F) → (⟨S_, .f32⟩ : BufTy).Contents (Elt F) → (⟨S2048, .f32⟩ : BufTy).Contents (Elt F)),
    StableHlo.binary main_v7 main_v11 main_v12 (addf : (⟨S2048, .f32⟩ : BufTy).Contents (Elt F) → (⟨S2048, .f32⟩ : BufTy).Contents (Elt F) → (⟨S2048, .f32⟩ : BufTy).Contents (Elt F)),
    StableHlo.nullary main_cst_2 (constant S_ .f32 0x00000000#32),
    StableHlo.binary main_v12 main_cst_2 main_v13 ((fun x v => Host.reduceAdd x v reducesTo_S2048_S_d0 h_S_) : (⟨S2048, .f32⟩ : BufTy).Contents (Elt F) → (⟨S_, .f32⟩ : BufTy).Contents (Elt F) → (⟨S_, .f32⟩ : BufTy).Contents (Elt F)),
    StableHlo.nullary main_cst_3 (constant S_ .f32 0x45000000#32),
    StableHlo.binary main_v13 main_cst_3 main_v14 (Host.divf : (⟨S_, .f32⟩ : BufTy).Contents (Elt F) → (⟨S_, .f32⟩ : BufTy).Contents (Elt F) → (⟨S_, .f32⟩ : BufTy).Contents (Elt F)) ]

/-- Stretch 0 of the line: 22 operations (a stretch ends where an outlined function is entered or left). -/
abbrev seg0 : List (HloOp τ sig (Elt F)) :=
  [ StableHlo.TRef.nullary main_call0.c (constantI S_ 32 0#32),
    StableHlo.TRef.unary main_call0.c main_call0.v0 (broadcastInDim S2048x20 ![] bcast_S_S2048x20),
    StableHlo.TRef.binary (.of main_arg1) main_call0.v0 main_call0.v1 (cmpi .slt),
    StableHlo.TRef.nullary main_call0.c_0 (constantI S_ 32 100000#32),
    StableHlo.TRef.unary main_call0.c_0 main_call0.v2 (broadcastInDim S2048x20 ![] bcast_S_S2048x20),
    StableHlo.TRef.binary (.of main_arg1) main_call0.v2 main_call0.v3 addi,
    StableHlo.TRef.ternary main_call0.v1 main_call0.v3 (.of main_arg1) main_call0.v4 select,
    StableHlo.TRef.reshape main_call0.v4 main_call0.v5 rfl shapeCasts_S2048x20_S2048x20x1,
    StableHlo.TRef.nullary main_call0.c_1 (constantI S1 32 99999#32),
    StableHlo.TRef.nullary main_call0.c_2 (constantI S_ 32 0#32),
    StableHlo.TRef.unary main_call0.c_2 main_call0.v6 (broadcastInDim S2048x20x1 ![] bcast_S_S2048x20x1),
    StableHlo.TRef.binary main_call0.v5 main_call0.v6 main_call0.v7 (cmpi .sge),
    StableHlo.TRef.unary main_call0.c_1 main_call0.v8 (broadcastInDim S1x1x1 ![2] bcast_S1_S1x1x1_2),
    StableHlo.TRef.unary main_call0.v8 main_call0.v9 (broadcastInDim S2048x20x1 ![0, 1, 2] bcast_S1x1x1_S2048x20x1_0_1_2),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S2048x20x1_S2048x20_d2 h_S_),
    StableHlo.TRef.binary (.of main_arg0) main_call0.v5 main_call0.v13 (fun x i => Host.gather gather_S2048x100000_S2048x20x1_S2048x20_n_1_0_0_1_2_11 x i),
    StableHlo.TRef.nullary main_call0.cst (constant S_ .f32 0x7FC00000#32),
    StableHlo.TRef.unary main_call0.cst main_call0.v14 (broadcastInDim S2048x20 ![] bcast_S_S2048x20),
    StableHlo.TRef.ternary main_call0.v12 main_call0.v13 main_call0.v14 main_call0.v15 select ]

/-- Stretch 1 of the line: 5 operations (a stretch ends where an outlined function is entered or left). -/
abbrev seg1 : List (HloOp τ sig (Elt F)) :=
  [ StableHlo.nullary main_cst (constant S_ .f32 0x00000000#32),
    StableHlo.binary main_arg2 main_cst main_v1 ((fun x v => Host.reduceAdd x v reducesTo_S2048x20_S2048_d1 h_S_) : (⟨S2048x20, .f32⟩ : BufTy).Contents (Elt F) → (⟨S_, .f32⟩ : BufTy).Contents (Elt F) → (⟨S2048, .f32⟩ : BufTy).Contents (Elt F)),
    StableHlo.unary main_v1 main_v2 (broadcastInDim S2048x1 ![0] bcast_S2048_S2048x1_0 : (⟨S2048, .f32⟩ : BufTy).Contents (Elt F) → (⟨S2048x1, .f32⟩ : BufTy).Contents (Elt F)),
    StableHlo.unary main_v2 main_v3 (broadcastInDim S2048x20 ![0, 1] bcast_S2048x1_S2048x20_0_1 : (⟨S2048x1, .f32⟩ : BufTy).Contents (Elt F) → (⟨S2048x20, .f32⟩ : BufTy).Contents (Elt F)),
    StableHlo.binary main_arg2 main_v3 main_v4 (Host.divf : (⟨S2048x20, .f32⟩ : BufTy).Contents (Elt F) → (⟨S2048x20, .f32⟩ : BufTy).Contents (Elt F) → (⟨S2048x20, .f32⟩ : BufTy).Contents (Elt F)) ]

/-- Stretch 2 of the line: 1 operations (a stretch ends where an outlined function is entered or left). -/
abbrev seg2 : List (HloOp τ sig (Elt F)) :=
  [ StableHlo.TRef.unary (.of main_v0) main_call1.v0 Host.negf ]

/-- Stretch 3 of the line: 14 operations (a stretch ends where an outlined function is entered or left). -/
abbrev seg3 : List (HloOp τ sig (Elt F)) :=
  [ StableHlo.TRef.nullary main_call1.call0.cst (constant S_ .f32 0x00000000#32),
    StableHlo.TRef.unary main_call1.call0.cst main_call1.call0.v0 (broadcastInDim S2048x20 ![] bcast_S_S2048x20),
    StableHlo.TRef.binary main_call1.v0 main_call1.call0.v0 main_call1.call0.v1 maximumf,
    StableHlo.TRef.unary main_call1.call0.cst main_call1.call0.v2 (broadcastInDim S2048x20 ![] bcast_S_S2048x20),
    StableHlo.TRef.binary main_call1.v0 main_call1.call0.v2 main_call1.call0.v3 subf,
    StableHlo.TRef.binary main_call1.call0.v3 main_call1.call0.v3 main_call1.call0.v4 (cmpf .une),
    StableHlo.TRef.unary main_call1.call0.cst main_call1.call0.v5 (broadcastInDim S2048x20 ![] bcast_S_S2048x20),
    StableHlo.TRef.binary main_call1.v0 main_call1.call0.v5 main_call1.call0.v6 addf,
    StableHlo.TRef.unary main_call1.call0.v3 main_call1.call0.v7 Host.absf,
    StableHlo.TRef.unary main_call1.call0.v7 main_call1.call0.v8 Host.negf,
    StableHlo.TRef.unary main_call1.call0.v8 main_call1.call0.v9 Host.exp,
    StableHlo.TRef.unary main_call1.call0.v9 main_call1.call0.v10 Host.log1p,
    StableHlo.TRef.binary main_call1.call0.v1 main_call1.call0.v10 main_call1.call0.v11 addf,
    StableHlo.TRef.ternary main_call1.call0.v4 main_call1.call0.v6 main_call1.call0.v11 main_call1.call0.v12 select ]

/-- Stretch 4 of the line: 1 operations (a stretch ends where an outlined function is entered or left). -/
abbrev seg4 : List (HloOp τ sig (Elt F)) :=
  [ StableHlo.TRef.unary main_call1.call0.v12 main_call1.v2 Host.negf ]

/-- Stretch 5 of the line: 3 operations (a stretch ends where an outlined function is entered or left). -/
abbrev seg5 : List (HloOp τ sig (Elt F)) :=
  [ StableHlo.binary main_v4 main_v5 main_v6 (mulf : (⟨S2048x20, .f32⟩ : BufTy).Contents (Elt F) → (⟨S2048x20, .f32⟩ : BufTy).Contents (Elt F) → (⟨S2048x20, .f32⟩ : BufTy).Contents (Elt F)),
    StableHlo.nullary main_cst_0 (constant S_ .f32 0x00000000#32),
    StableHlo.binary main_v6 main_cst_0 main_v7 ((fun x v => Host.reduceAdd x v reducesTo_S2048x20_S2048_d1 h_S_) : (⟨S2048x20, .f32⟩ : BufTy).Contents (Elt F) → (⟨S_, .f32⟩ : BufTy).Contents (Elt F) → (⟨S2048, .f32⟩ : BufTy).Contents (Elt F)) ]

/-- Stretch 6 of the line: 22 operations (a stretch ends where an outlined function is entered or left). -/
abbrev seg6 : List (HloOp τ sig (Elt F)) :=
  [ StableHlo.TRef.nullary main_call2.c (constantI S_ 32 0#32),
    StableHlo.TRef.unary main_call2.c main_call2.v0 (broadcastInDim S2048x200 ![] bcast_S_S2048x200),
    StableHlo.TRef.binary (.of main_arg3) main_call2.v0 main_call2.v1 (cmpi .slt),
    StableHlo.TRef.nullary main_call2.c_0 (constantI S_ 32 100000#32),
    StableHlo.TRef.unary main_call2.c_0 main_call2.v2 (broadcastInDim S2048x200 ![] bcast_S_S2048x200),
    StableHlo.TRef.binary (.of main_arg3) main_call2.v2 main_call2.v3 addi,
    StableHlo.TRef.ternary main_call2.v1 main_call2.v3 (.of main_arg3) main_call2.v4 select,
    StableHlo.TRef.reshape main_call2.v4 main_call2.v5 rfl shapeCasts_S2048x200_S2048x200x1,
    StableHlo.TRef.nullary main_call2.c_1 (constantI S1 32 99999#32),
    StableHlo.TRef.nullary main_call2.c_2 (constantI S_ 32 0#32),
    StableHlo.TRef.unary main_call2.c_2 main_call2.v6 (broadcastInDim S2048x200x1 ![] bcast_S_S2048x200x1),
    StableHlo.TRef.binary main_call2.v5 main_call2.v6 main_call2.v7 (cmpi .sge),
    StableHlo.TRef.unary main_call2.c_1 main_call2.v8 (broadcastInDim S1x1x1 ![2] bcast_S1_S1x1x1_2),
    StableHlo.TRef.unary main_call2.v8 main_call2.v9 (broadcastInDim S2048x200x1 ![0, 1, 2] bcast_S1x1x1_S2048x200x1_0_1_2),
    StableHlo.TRef.binary main_call2.v5 main_call2.v9 main_call2.v10 (cmpi .sle),
    StableHlo.TRef.binary main_call2.v7 main_call2.v10 main_call2.v11 andi,
    StableHlo.TRef.nullary main_call2.c_3 (constantI S_ 1 1#1),
    StableHlo.TRef.binary main_call2.v11 main_call2.c_3 main_call2.v12 (fun x v => Host.reduce IntOp.andi x v reducesTo_S2048x200x1_S2048x200_d2 h_S_),
    StableHlo.TRef.binary (.of main_arg0) main_call2.v5 main_call2.v13 (fun x i => Host.gather gather_S2048x100000_S2048x200x1_S2048x200_n_1_0_0_1_2_11 x i),
    StableHlo.TRef.nullary main_call2.cst (constant S_ .f32 0x7FC00000#32),
    StableHlo.TRef.unary main_call2.cst main_call2.v14 (broadcastInDim S2048x200 ![] bcast_S_S2048x200),
    StableHlo.TRef.ternary main_call2.v12 main_call2.v13 main_call2.v14 main_call2.v15 select ]

/-- Stretch 7 of the line: 1 operations (a stretch ends where an outlined function is entered or left). -/
abbrev seg7 : List (HloOp τ sig (Elt F)) :=
  [ StableHlo.unary main_v8 main_v9 (Host.negf : (⟨S2048x200, .f32⟩ : BufTy).Contents (Elt F) → (⟨S2048x200, .f32⟩ : BufTy).Contents (Elt F)) ]

/-- Stretch 8 of the line: 1 operations (a stretch ends where an outlined function is entered or left). -/
abbrev seg8 : List (HloOp τ sig (Elt F)) :=
  [ StableHlo.TRef.unary (.of main_v9) main_call3.v0 Host.negf ]

/-- Stretch 9 of the line: 14 operations (a stretch ends where an outlined function is entered or left). -/
abbrev seg9 : List (HloOp τ sig (Elt F)) :=
  [ StableHlo.TRef.nullary main_call3.call0.cst (constant S_ .f32 0x00000000#32),
    StableHlo.TRef.unary main_call3.call0.cst main_call3.call0.v0 (broadcastInDim S2048x200 ![] bcast_S_S2048x200),
    StableHlo.TRef.binary main_call3.v0 main_call3.call0.v0 main_call3.call0.v1 maximumf,
    StableHlo.TRef.unary main_call3.call0.cst main_call3.call0.v2 (broadcastInDim S2048x200 ![] bcast_S_S2048x200),
    StableHlo.TRef.binary main_call3.v0 main_call3.call0.v2 main_call3.call0.v3 subf,
    StableHlo.TRef.binary main_call3.call0.v3 main_call3.call0.v3 main_call3.call0.v4 (cmpf .une),
    StableHlo.TRef.unary main_call3.call0.cst main_call3.call0.v5 (broadcastInDim S2048x200 ![] bcast_S_S2048x200),
    StableHlo.TRef.binary main_call3.v0 main_call3.call0.v5 main_call3.call0.v6 addf,
    StableHlo.TRef.unary main_call3.call0.v3 main_call3.call0.v7 Host.absf,
    StableHlo.TRef.unary main_call3.call0.v7 main_call3.call0.v8 Host.negf,
    StableHlo.TRef.unary main_call3.call0.v8 main_call3.call0.v9 Host.exp,
    StableHlo.TRef.unary main_call3.call0.v9 main_call3.call0.v10 Host.log1p,
    StableHlo.TRef.binary main_call3.call0.v1 main_call3.call0.v10 main_call3.call0.v11 addf,
    StableHlo.TRef.ternary main_call3.call0.v4 main_call3.call0.v6 main_call3.call0.v11 main_call3.call0.v12 select ]

/-- Stretch 10 of the line: 1 operations (a stretch ends where an outlined function is entered or left). -/
abbrev seg10 : List (HloOp τ sig (Elt F)) :=
  [ StableHlo.TRef.unary main_call3.call0.v12 main_call3.v2 Host.negf ]

/-- Stretch 11 of the line: 7 operations (a stretch ends where an outlined function is entered or left). -/
abbrev seg11 : List (HloOp τ sig (Elt F)) :=
  [ StableHlo.nullary main_cst_1 (constant S_ .f32 0x00000000#32),
    StableHlo.binary main_v10 main_cst_1 main_v11 ((fun x v => Host.reduceAdd x v reducesTo_S2048x200_S2048_d1 h_S_) : (⟨S2048x200, .f32⟩ : BufTy).Contents (Elt F) → (⟨S_, .f32⟩ : BufTy).Contents (Elt F) → (⟨S2048, .f32⟩ : BufTy).Contents (Elt F)),
    StableHlo.binary main_v7 main_v11 main_v12 (addf : (⟨S2048, .f32⟩ : BufTy).Contents (Elt F) → (⟨S2048, .f32⟩ : BufTy).Contents (Elt F) → (⟨S2048, .f32⟩ : BufTy).Contents (Elt F)),
    StableHlo.nullary main_cst_2 (constant S_ .f32 0x00000000#32),
    StableHlo.binary main_v12 main_cst_2 main_v13 ((fun x v => Host.reduceAdd x v reducesTo_S2048_S_d0 h_S_) : (⟨S2048, .f32⟩ : BufTy).Contents (Elt F) → (⟨S_, .f32⟩ : BufTy).Contents (Elt F) → (⟨S_, .f32⟩ : BufTy).Contents (Elt F)),
    StableHlo.nullary main_cst_3 (constant S_ .f32 0x45000000#32),
    StableHlo.binary main_v13 main_cst_3 main_v14 (Host.divf : (⟨S_, .f32⟩ : BufTy).Contents (Elt F) → (⟨S_, .f32⟩ : BufTy).Contents (Elt F) → (⟨S_, .f32⟩ : BufTy).Contents (Elt F)) ]

/-- @main is the chain of its stretches: by definitional unfolding, checked by the kernel. -/
theorem main_chain (c : Dev nD) : main (F := F) c = (Pipeline.chain [seq seg0, seq seg1, seq seg2, seq seg3, seq seg4, seq seg5, seq seg6, seq seg7, seq seg8, seq seg9, seq seg10, seq seg11] : Prog (TpuEff nD τ sig (Elt F) (Pipeline.Sig Λ₀ (Fin 0) fun p => (pcfgs (F := F) p).Adm) .tc) PUnit) := by
  chain_rfl

/-- The whole line is the same chain. -/
theorem seq_chain : (seq ops : Prog (TpuEff nD τ sig (Elt F) (Pipeline.Sig Λ₀ (Fin 0) fun p => (pcfgs (F := F) p).Adm) .tc) PUnit) = (Pipeline.chain [seq seg0, seq seg1, seq seg2, seq seg3, seq seg4, seq seg5, seq seg6, seq seg7, seq seg8, seq seg9, seq seg10, seq seg11] : Prog (TpuEff nD τ sig (Elt F) (Pipeline.Sig Λ₀ (Fin 0) fun p => (pcfgs (F := F) p).Adm) .tc) PUnit) := by
  chain_rfl

/-- @main is that line. -/
theorem main_eq (c : Dev nD) : main (F := F) c = seq ops := (main_chain c).trans seq_chain.symm

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., nullary_bufs_sub .., binary_bufs_sub .., unary_bufs_sub .., unary_bufs_sub .., binary_bufs_sub .., unary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., unary_bufs_sub .., binary_bufs_sub .., nullary_bufs_sub .., binary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., unary_bufs_sub .., unary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., unary_bufs_sub .., nullary_bufs_sub .., binary_bufs_sub .., binary_bufs_sub .., nullary_bufs_sub .., binary_bufs_sub .., nullary_bufs_sub .., binary_bufs_sub ..⟩

end Cert.ReferenceIdeal.Line

end
-- ==== Proof.RefTerm.lean ====
/-
  The reference program's result as one pure function of its four argument arrays, in the program's own spelling, and
  that function read at its one entry over the extended reals: the mean over the rows of `Cert.Loss.rowLoss`.
-/
import proofs.«175871_j72095321030873_2_alg».proof.Proof.Spec
import Idealize.ShloMosaic.Lib.IdealHost
import Idealize.ShloMosaic.Lib.Pipeline.Value

noncomputable section

open scoped BigOperators

namespace Cert.Loss

open Idealize.ShloMosaic Idealize.ShloMosaic.ValueIdx

section Term

variable {F : FTy → Type} [FloatOps F]

/-- The host's logσ of an array of any shape: −softplus (−x), softplus in the spelling of `softplus_entry`. -/
def lsHost (S : Shape) (hb : Ssc.BroadcastsInDim S ![]) (x : FVec F S .f32) : FVec F S .f32 :=
  let a : FVec F S .f32 := Host.negf x
  let z : FVec F S .f32 := broadcastInDim S ![] hb (constant Ssc .f32 0x00000000#32)
  let d : FVec F S .f32 := subf a z
  Host.negf (select (cmpf .une d d) (addf a z) (addf (maximumf a z) (Host.log1p (Host.exp (Host.negf (Host.absf d))))))

/-- The reference's result: weights tv / Σtv, the weighted sum of logσ of the positive logits, the sum of logσ of the negated
    negative logits, their sum per row, and the mean over the rows. -/
def refOut (x : FVec F SA .f32) (k : IVec SP 32) (tv : FVec F SP .f32) (n : IVec SN 32) : FVec F Ssc .f32 :=
  let s : FVec F SB .f32 := Host.reduceAdd tv (constant Ssc .f32 0x00000000#32) (by decide : SP.ReducesTo [1] SB) (by decide)
  let w : FVec F SP .f32 := Host.divf tv (broadcastInDim SP ![0, 1] (by decide) (broadcastInDim SB1 ![0] (by decide) s))
  let v7 : FVec F SB .f32 := Host.reduceAdd (mulf w (lsHost SP (by decide) (takeP x k))) (constant Ssc .f32 0x00000000#32)
    (by decide : SP.ReducesTo [1] SB) (by decide)
  let v11 : FVec F SB .f32 := Host.reduceAdd (lsHost SN (by decide) (Host.negf (takeN x n))) (constant Ssc .f32 0x00000000#32)
    (by decide : SN.ReducesTo [1] SB) (by decide)
  Host.divf (Host.reduceAdd (addf v7 v11) (constant Ssc .f32 0x00000000#32) (by decide : SB.ReducesTo [0] Ssc) (by decide))
    (constant Ssc .f32 0x45000000#32)

end Term

end Cert.Loss

end
-- ==== Proof.RefRun.lean ====
/-
  The reference program's run: every weakly fair execution terminates with the result buffer at `Cert.Loss.refOut` of the
  argument arrays as launched, and the arguments unchanged. The line is read stretch by stretch: what each stretch leaves
  in the buffer the next ones read, as a pure function of the contents it starts from, and which buffers it keeps.
-/
import proofs.«175871_j72095321030873_2_alg».proof.Proof.RefOps
import proofs.«175871_j72095321030873_2_alg».proof.Proof.RefTerm
import proofs.«175871_j72095321030873_2_alg».proof.Proof.LibTypedRefs
import Idealize.ShloMosaic.Lib.Pipeline.Frame

noncomputable section

namespace Cert.ReferenceIdeal.Line

open Cert.ReferenceIdeal Idealize.ShloMosaic Idealize.ShloMosaic.TcCoe Idealize.SL.Sem Idealize.ShloMosaic.StableHlo
open Cert.Loss

variable {F : FTy → Type} [FloatOps F]

/-- A buffer none of a stretch's operations writes keeps its contents. -/
local macro "keeps" : tactic => `(tactic| (
  refine StableHlo.after_of_forall_not_mem _ _ (List.forall_iff_forall_mem.mp ?_)
  simp only [ops, seg0, seg1, seg2, seg3, seg4, seg5, seg6, seg7, seg8, seg9, seg10, seg11, List.Forall, List.cons_append, List.nil_append,
    nullary_writes, unary_writes, binary_writes, ternary_writes, reshape_writes, Finset.mem_singleton]
  repeat' apply And.intro
  all_goals exact StableHlo.devRef_ne_of_ne (by decide)))

/-! ## What each stretch leaves -/

attribute [local irreducible] Host.reduce Host.gather in
set_option maxRecDepth 16384 in
set_option maxHeartbeats 800000 in
theorem valA (W : Valuation τ sig (Elt F)) :
    after seg0 W (main_v0 : DevRef τ sig) = takeP (W (main_arg0 : DevRef τ sig)) (W (main_arg1 : DevRef τ sig)) := by
  after_results_simp
  try simp only [Cert.TypedRefs.ofBuf_toBuf]
  try rfl

theorem valB (W : Valuation τ sig (Elt F)) :
    after seg1 W (main_v4 : DevRef τ sig)
      = Host.divf (W (main_arg2 : DevRef τ sig)) (broadcastInDim SP ![0, 1] (by decide) (broadcastInDim SB1 ![0] (by decide)
          (Host.reduceAdd (W (main_arg2 : DevRef τ sig)) (constant Ssc .f32 0x00000000#32) (by decide : SP.ReducesTo [1] SB) (by decide)))) := by
  after_results_simp
  try simp only [Cert.TypedRefs.ofBuf_toBuf]
  try rfl

set_option maxRecDepth 16384 in
set_option maxHeartbeats 800000 in
theorem valC (W : Valuation τ sig (Elt F)) :
    after (seg2 ++ seg3 ++ seg4) W (main_v5 : DevRef τ sig) = lsHost SP (by decide) (W (main_v0 : DevRef τ sig)) := by
  simp only [seg2, seg3, seg4, List.cons_append, List.nil_append]
  after_results_simp
  try simp only [Cert.TypedRefs.ofBuf_toBuf]
  try rfl

theorem valD (W : Valuation τ sig (Elt F)) :
    after seg5 W (main_v7 : DevRef τ sig)
      = Host.reduceAdd (mulf (W (main_v4 : DevRef τ sig)) (W (main_v5 : DevRef τ sig))) (constant Ssc .f32 0x00000000#32)
          (by decide : SP.ReducesTo [1] SB) (by decide) := by
  after_results_simp
  try simp only [Cert.TypedRefs.ofBuf_toBuf]
  try rfl

attribute [local irreducible] Host.reduce Host.gather in
set_option maxRecDepth 16384 in
set_option maxHeartbeats 800000 in
theorem valE (W : Valuation τ sig (Elt F)) :
    after seg6 W (main_v8 : DevRef τ sig) = takeN (W (main_arg0 : DevRef τ sig)) (W (main_arg3 : DevRef τ sig)) := by
  after_results_simp
  try simp only [Cert.TypedRefs.ofBuf_toBuf]
  try rfl

theorem valG (W : Valuation τ sig (Elt F)) :
    after seg7 W (main_v9 : DevRef τ sig) = Host.negf (W (main_v8 : DevRef τ sig)) := by
  after_results_simp
  try simp only [Cert.TypedRefs.ofBuf_toBuf]
  try rfl

set_option maxRecDepth 16384 in
set_option maxHeartbeats 800000 in
theorem valH (W : Valuation τ sig (Elt F)) :
    after (seg8 ++ seg9 ++ seg10) W (main_v10 : DevRef τ sig) = lsHost SN (by decide) (W (main_v9 : DevRef τ sig)) := by
  simp only [seg8, seg9, seg10, List.cons_append, List.nil_append]
  after_results_simp
  try simp only [Cert.TypedRefs.ofBuf_toBuf]
  try rfl

theorem valI (W : Valuation τ sig (Elt F)) :
    after seg11 W (main_v14 : DevRef τ sig)
      = Host.divf (Host.reduceAdd (addf (W (main_v7 : DevRef τ sig))
            (Host.reduceAdd (W (main_v10 : DevRef τ sig)) (constant Ssc .f32 0x00000000#32) (by decide : SN.ReducesTo [1] SB) (by decide)))
          (constant Ssc .f32 0x00000000#32) (by decide : SB.ReducesTo [0] Ssc) (by decide))
        (constant Ssc .f32 0x45000000#32) := by
  after_results_simp
  try simp only [Cert.TypedRefs.ofBuf_toBuf]
  try rfl

/-! ## What each stretch keeps -/

theorem keepA0 (W : Valuation τ sig (Elt F)) : after seg0 W (Proc.devRef .tc main_arg0) = W (Proc.devRef .tc main_arg0) := by keeps
theorem keepA2 (W : Valuation τ sig (Elt F)) : after seg0 W (Proc.devRef .tc main_arg2) = W (Proc.devRef .tc main_arg2) := by keeps
theorem keepA3 (W : Valuation τ sig (Elt F)) : after seg0 W (Proc.devRef .tc main_arg3) = W (Proc.devRef .tc main_arg3) := by keeps
theorem keepB0 (W : Valuation τ sig (Elt F)) : after seg1 W (Proc.devRef .tc main_arg0) = W (Proc.devRef .tc main_arg0) := by keeps
theorem keepB3 (W : Valuation τ sig (Elt F)) : after seg1 W (Proc.devRef .tc main_arg3) = W (Proc.devRef .tc main_arg3) := by keeps
theorem keepBv (W : Valuation τ sig (Elt F)) : after seg1 W (Proc.devRef .tc main_v0) = W (Proc.devRef .tc main_v0) := by keeps
theorem keepC0 (W : Valuation τ sig (Elt F)) : after (seg2 ++ seg3 ++ seg4) W (Proc.devRef .tc main_arg0) = W (Proc.devRef .tc main_arg0) := by keeps
theorem keepC3 (W : Valuation τ sig (Elt F)) : after (seg2 ++ seg3 ++ seg4) W (Proc.devRef .tc main_arg3) = W (Proc.devRef .tc main_arg3) := by keeps
theorem keepCv (W : Valuation τ sig (Elt F)) : after (seg2 ++ seg3 ++ seg4) W (Proc.devRef .tc main_v4) = W (Proc.devRef .tc main_v4) := by keeps
theorem keepD0 (W : Valuation τ sig (Elt F)) : after seg5 W (Proc.devRef .tc main_arg0) = W (Proc.devRef .tc main_arg0) := by keeps
theorem keepD3 (W : Valuation τ sig (Elt F)) : after seg5 W (Proc.devRef .tc main_arg3) = W (Proc.devRef .tc main_arg3) := by keeps
theorem keepEv (W : Valuation τ sig (Elt F)) : after seg6 W (Proc.devRef .tc main_v7) = W (Proc.devRef .tc main_v7) := by keeps
theorem keepGv (W : Valuation τ sig (Elt F)) : after seg7 W (Proc.devRef .tc main_v7) = W (Proc.devRef .tc main_v7) := by keeps
theorem keepHv (W : Valuation τ sig (Elt F)) : after (seg8 ++ seg9 ++ seg10) W (Proc.devRef .tc main_v7) = W (Proc.devRef .tc main_v7) := by keeps

/-! ## The whole line -/

/-- The line is its stretches, one after the other. -/
theorem ops_split : (ops : List (HloOp τ sig (Elt F)))
    = seg0 ++ (seg1 ++ ((seg2 ++ seg3 ++ seg4) ++ (seg5 ++ (seg6 ++ (seg7 ++ ((seg8 ++ seg9 ++ seg10) ++ seg11)))))) := rfl

/-- The fold of the line at the result buffer is the pure function of the contents of the argument buffers. -/
theorem out_eq (V : Valuation τ sig (Elt F)) :
    after ops V (main_v14 : DevRef τ sig)
      = refOut (V (main_arg0 : DevRef τ sig)) (V (main_arg1 : DevRef τ sig)) (V (main_arg2 : DevRef τ sig)) (V (main_arg3 : DevRef τ sig)) := by
  rw [ops_split, StableHlo.after_append, StableHlo.after_append, StableHlo.after_append, StableHlo.after_append, StableHlo.after_append,
    StableHlo.after_append, StableHlo.after_append]
  rw [valI, valH, keepHv, valG, keepGv, valE, keepEv, valD, keepD0, keepD3, valC, keepCv, keepC0, keepC3, valB, keepBv, keepB0, keepB3,
    valA, keepA2, keepA0, keepA3]
  rfl

theorem arg0_eq (V : Valuation τ sig (Elt F)) : after ops V (Proc.devRef .tc main_arg0) = V (Proc.devRef .tc main_arg0) := by keeps
theorem arg1_eq (V : Valuation τ sig (Elt F)) : after ops V (Proc.devRef .tc main_arg1) = V (Proc.devRef .tc main_arg1) := by keeps
theorem arg2_eq (V : Valuation τ sig (Elt F)) : after ops V (Proc.devRef .tc main_arg2) = V (Proc.devRef .tc main_arg2) := by keeps
theorem arg3_eq (V : Valuation τ sig (Elt F)) : after ops V (Proc.devRef .tc main_arg3) = V (Proc.devRef .tc main_arg3) := by keeps

/-- The run. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v14)
        = refOut (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v14).trans (out_eq _), (h c main_arg0).trans (arg0_eq _),
      (h c main_arg1).trans (arg1_eq _), (h c main_arg2).trans (arg2_eq _), (h c main_arg3).trans (arg3_eq _)⟩)
    (run_seq scopedRefs_eq scopedSems_eq defs main (fun _ => ops) main_eq (fun _ => ops_sub) m ρ)

end Cert.ReferenceIdeal.Line

end
-- ==== Proof.RefValue.lean ====
/-
  The reference's result read at its one entry over the extended reals: the mean over the rows of `Cert.Loss.rowLoss` of the
  looked-up logits and the weights.
-/
import proofs.«175871_j72095321030873_2_alg».proof.Proof.RefTerm
import proofs.«175871_j72095321030873_2_alg».proof.Proof.LibHostSums

noncomputable section

open scoped BigOperators

namespace Cert.Loss

open Idealize.ShloMosaic Idealize.ShloMosaic.ValueIdx Cert.HostSums

/-- The host's logσ at an index. -/
theorem lsHost_apply (S : Shape) (hb : Ssc.BroadcastsInDim S ![]) (x : FVec Ideal S .f32) (i : S.Idx) :
    lsHost S hb x i = ls (x i) := by
  have hzf : broadcastInDim S ![] hb (constant (F := Ideal) Ssc .f32 0x00000000#32) = fun _ => (0 : EReal) :=
    funext fun i => (broadcastInDim_scalar_apply hb _ i).trans Ideal.ofBits_zero_f32
  unfold lsHost ls
  rw [hzf]
  exact congrArg Neg.neg (softplus_entry .une (Or.inl rfl) (-(x i)))

/-- The weights' denominator repeated along the row, at (r, j): the row sum. -/
theorem denom_apply (tv : FVec Ideal SP .f32) (h1 : SB.BroadcastsInDim SB1 ![0]) (h2 : SB1.BroadcastsInDim SP ![0, 1])
    (hr : SP.ReducesTo [1] SB) (hu : 0 < Ssc.numel) (r : Fin 2048) (j : Fin 20) :
    broadcastInDim SP ![0, 1] h2 (broadcastInDim SB1 ![0] h1
        (Host.reduceAdd tv (constant (F := Ideal) Ssc .f32 0x00000000#32) hr hu)) (ix2 r j)
      = ∑ j' : Fin 20, tv (ix2 r j') := by
  refine (broadcastInDim_apply ![0, 1] h2 _ (ix2 r j) (ix2 r (0 : Fin 1)) fun a => ?_).trans ?_
  · match a with
    | ⟨0, _⟩ => rfl
    | ⟨1, _⟩ => rfl
  refine (broadcastInDim_apply ![0] h1 _ (ix2 r (0 : Fin 1)) (ix1 r) fun a => ?_).trans ?_
  · match a with
    | ⟨0, _⟩ => rfl
  refine (hostRowSum_apply tv _ hr hu r).trans ?_
  show Ideal.ofBits .f32 0x00000000#32 + _ = _
  rw [Ideal.ofBits_zero_f32, zero_add]

/-- The reference's result is the mean of the rows' losses. -/
theorem refOut_apply (x : FVec Ideal SA .f32) (k : IVec SP 32) (tv : FVec Ideal SP .f32) (n : IVec SN 32) :
    refOut x k tv n ix0
      = meanLoss (rowLoss (fun r j => takeP x k (ix2 r j)) (fun r j => tv (ix2 r j)) (fun r q => takeN x n (ix2 r q))) := by
  unfold refOut meanLoss
  show Ideal.div (Host.reduceAdd (F := Ideal) _ _ _ _ ix0) (Ideal.ofBits .f32 0x45000000#32) = _
  refine congrArg (fun a => Ideal.div a (Ideal.ofBits .f32 0x45000000#32)) ?_
  refine (hostTotal1_apply _ _ _ _).trans ?_
  refine congrArg₂ (fun a b : EReal => a + b) Ideal.ofBits_zero_f32 (Finset.sum_congr rfl fun r _ => ?_)
  unfold rowLoss
  refine congrArg₂ (fun a b : EReal => a + b) ?_ ?_
  · refine (hostRowSum_apply _ _ _ _ r).trans ?_
    refine (congrArg₂ (fun a b : EReal => a + b) Ideal.ofBits_zero_f32 rfl).trans ((zero_add _).trans ?_)
    refine Finset.sum_congr rfl fun j _ => ?_
    refine congrArg₂ (fun a b : EReal => a * b) (congrArg (Ideal.div (tv (ix2 r j))) (denom_apply tv _ _ _ _ r j)) ?_
    exact lsHost_apply SP _ _ _
  · refine (hostRowSum_apply _ _ _ _ r).trans ?_
    refine (congrArg₂ (fun a b : EReal => a + b) Ideal.ofBits_zero_f32 rfl).trans ((zero_add _).trans ?_)
    refine Finset.sum_congr rfl fun q _ => ?_
    exact lsHost_apply SN _ _ _

end Cert.Loss

end
-- ==== Proof.PreRows.lean ====
/-
  What the added precondition says of the weights: under `finite_inputs` (read over the extended reals) every row of the
  weight array has a nonzero sum. The predicate's last conjunct is the conjunction over the rows of "the host's sum of the row
  from zero is not equal to zero".
-/
import proofs.«175871_j72095321030873_2_alg».proof.Defs
import proofs.«175871_j72095321030873_2_alg».proof.Proof.Gen.Pre_finite_inputs
import proofs.«175871_j72095321030873_2_alg».proof.Proof.LibHostSums
import Idealize.ShloMosaic.Lib.ReduceAll
import Idealize.ShloMosaic.Lib.Affine

noncomputable section
open scoped BigOperators

namespace Cert.PreRows

open Idealize.ShloMosaic Idealize.ShloMosaic.ValueIdx Cert.Pre_finite_inputs

instance : Subsingleton S_.Idx := ⟨fun _ _ => funext fun d => d.elim0⟩

/-- Each row of the weights has a nonzero sum. -/
theorem rows_ne (a0 : FVec Ideal S2048x100000 .f32) (a1 : IVec S2048x20 32) (a2 : FVec Ideal S2048x20 .f32) (a3 : IVec S2048x200 32)
    (h : Cert.Pre_finite_inputs.fn (F := Ideal) a0 a1 a2 a3 = fun _ => 1#1) (r : Fin 2048) :
    (∑ j : Fin 20, a2 (ix2 r j)) ≠ 0 := by
  have h0 := congrFun h ix0
  dsimp only [Cert.Pre_finite_inputs.fn] at h0
  obtain ⟨-, h12⟩ := IntOp.andi_eq_one.1 h0
  have hr := Host.reduce_andi_all _ _ _ _ _ h12 (ix1 r)
  have hs : Host.reduceAdd a2 (constant (F := Ideal) S_ .f32 0x00000000#32) Facts.reducesTo_S2048x20_S2048_d1 Facts.h_S_ (ix1 r)
      = ∑ j : Fin 20, a2 (ix2 r j) := by
    refine (Cert.HostSums.hostRowSum_apply a2 _ _ _ r).trans ?_
    show Ideal.ofBits .f32 0x00000000#32 + _ = _
    rw [Ideal.ofBits_zero_f32, zero_add]
  have hb : broadcastInDim S2048 ![] Facts.bcast_S_S2048 (constant (F := Ideal) S_ .f32 0x00000000#32) (ix1 r) = 0 :=
    (broadcastInDim_scalar_apply _ _ _).trans Ideal.ofBits_zero_f32
  intro hzero
  have hc : Ideal.cmp .une (∑ j : Fin 20, a2 (ix2 r j)) 0 = 1#1 := by
    rw [← hs, ← hb]; exact hr
  rw [hzero] at hc
  simp [Ideal.cmp] at hc

end Cert.PreRows

end
-- ==== Proof.lean ====
/-
  The certificate. Both programs compute the mean over the 2048 batch rows of

      rowLoss r = ∑ⱼ (tv r j / ∑ⱼ' tv r j') · logσ (P r j) + ∑ₖ logσ (−Ng r k),

  P and Ng the logit matrix looked up at the positive and negative key tables (the same look-ups in both programs), on the
  extended reals. The kernel computes the rows in blocks of sixteen inside its region, with the weights' denominator guarded
  (a zero row sum replaced by one), and averages the resulting column on the host; the reference does everything on the host
  and divides by the bare row sum. The two agree wherever every row sum is nonzero, which is the precondition's last conjunct
  (where a row sum is zero the reference divides by zero). The three frames are the generated frame runs (the reference's,
  its hand-read line); nothing was rewritten by the ideal pass, so `preserves` is trivial.
-/
import proofs.«175871_j72095321030873_2_alg».proof.Defs
import proofs.«175871_j72095321030873_2_alg».proof.Proof.Gen.Kernel
import proofs.«175871_j72095321030873_2_alg».proof.Proof.Gen.Kernel.Frame
import proofs.«175871_j72095321030873_2_alg».proof.Proof.Gen.KernelIdeal
import proofs.«175871_j72095321030873_2_alg».proof.Proof.Gen.KernelIdeal.Frame
import proofs.«175871_j72095321030873_2_alg».proof.Proof.Gen.ReferenceIdeal
import proofs.«175871_j72095321030873_2_alg».proof.Proof.Gen.Pre_finite_inputs
import proofs.«175871_j72095321030873_2_alg».proof.Proof.KernelValue
import proofs.«175871_j72095321030873_2_alg».proof.Proof.RefRun
import proofs.«175871_j72095321030873_2_alg».proof.Proof.RefValue
import proofs.«175871_j72095321030873_2_alg».proof.Proof.PreRows
import Idealize.ShloMosaic.Adequacy
import Idealize.ShloMosaic.Init

noncomputable section

namespace Cert.Proof

open Idealize.ShloMosaic Idealize.SL.Sem Idealize.ShloMosaic.ValueIdx Cert.Loss

/-- The common value: the mean of the rows' losses, as a function of the four argument arrays. -/
def value (x : FVec Ideal SA .f32) (k : IVec SP 32) (tv : FVec Ideal SP .f32) (n : IVec SN 32) : Ssc.Idx → EReal := fun _ =>
  meanLoss (rowLoss (fun r j => takeP x k (ix2 r j)) (fun r j => tv (ix2 r j)) (fun r q => takeN x n (ix2 r q)))

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Line.run (F := Ideal) m ρ)

/-- The kernel program's result is the common value of its launch arrays, where every row of the weights has a nonzero sum. -/
theorem kernel_value (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.KernelIdeal.Value.kernOut (Cert.KernelIdeal.Value.col m c)
      = value (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3)) := by
  funext i
  rw [eq_ix0 i, Cert.KernelIdeal.Value.kernOut_apply]
  unfold value
  refine congrArg meanLoss (funext fun r => ?_)
  show rowLossG _ _ _ r = _
  have hne := Cert.PreRows.rows_ne _ _ _ _ (hpre c) r
  rw [Cert.KernelIdeal.Gen.V_main_arg2 m c, Cert.KernelIdeal.Value.V_pos m c, Cert.KernelIdeal.Value.V_neg m c]
  exact rowLossG_eq _ _ _ r hne

theorem algebraic : Cert.algebraic_KernelIdeal_ReferenceIdeal := by
  intro m ρ m' ρ' hpre hagree
  refine ⟨fun c => value (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono (fun _ h c => ⟨(h c).1.trans (kernel_value m hpre c), (h c).2⟩)
      (Cert.KernelIdeal.Value.run m ρ)
  · refine (θ_run Cert.ReferenceIdeal.defs _ _).mono (fun _ h c => ⟨(h c).1.trans ?_, (h c).2⟩)
      (Cert.ReferenceIdeal.Line.run (F := Ideal) m' ρ')
    rw [(hagree c).1, (hagree c).2.1, (hagree c).2.2.1, (hagree c).2.2.2]
    funext i
    rw [eq_ix0 i]
    exact refOut_apply _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
